-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S8x2048x1024 .f32) (main_arg1 : FVec F S8x2048x1024 .f32) (main_arg2 : FVec F S8x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S8x2048x1024 : Shape := ⟨3, ![8, 2048, 1024]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S1x512x1024 : Shape := ⟨3, ![1, 512, 1024]⟩
abbrev S1x2048x1024 : Shape := ⟨3, ![1, 2048, 1024]⟩
abbrev S1x512x2048 : Shape := ⟨3, ![1, 512, 2048]⟩
abbrev S1x512 : Shape := ⟨2, ![1, 512]⟩
abbrev S1x512x1 : Shape := ⟨3, ![1, 512, 1]⟩

abbrev nBuf : Space → Nat
  | .hbm => 28
  | .vmem => 26
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S16384x1024, .bf16⟩
  | .hbm, ⟨22, _⟩ => ⟨S16384x1024, .bf16⟩
  | .hbm, ⟨23, _⟩ => ⟨S16384x1024, .bf16⟩
  | .hbm, ⟨24, _⟩ => ⟨S8x2048x1024, .bf16⟩
  | .hbm, ⟨25, _⟩ => ⟨S8x2048x1024, .bf16⟩
  | .hbm, ⟨26, _⟩ => ⟨S8x2048x1024, .bf16⟩
  | .hbm, ⟨27, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x2048x1024, .bf16⟩
  | .local _ .vmem, ⟨21, _⟩ => ⟨S1x2048x1024, .bf16⟩
  | .local _ .vmem, ⟨22, _⟩ => ⟨S1x2048x1024, .bf16⟩
  | .local _ .vmem, ⟨23, _⟩ => ⟨S1x2048x1024, .bf16⟩
  | .local _ .vmem, ⟨24, _⟩ => ⟨S1x512x1024, .f32⟩
  | .local _ .vmem, ⟨25, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S8x2048x1024_S16384x1024 : S8x2048x1024.ShapeCasts S16384x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S16384x1024_S8x2048x1024 : S16384x1024.ShapeCasts S8x2048x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S1x512x1024 : S1x512x1024.ShapeCasts S1x512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S1x2048x1024 : S1x2048x1024.ShapeCasts S1x2048x1024
  reduces_S1x512x2048_S1x512 : S1x512x2048.Reduces [2] S1x512
  shapeCasts_S1x512_S1x512x1 : S1x512.ShapeCasts S1x512x1
  broadcasts_S1x512x1_S1x512x2048 : S1x512x1.Broadcasts S1x512x2048
  broadcasts_S1x512x1_S1x512x1024 : S1x512x1.Broadcasts S1x512x1024
  dot_S512x1024_S1024x1024_S512x1024_1_0_0_1_n_n_wf : DotDims.WF S512x1024 S1024x1024 S512x1024 [1] [0] [0] [1] [] []
  dot_S1x512x1024_S1x2048x1024_S1x512x2048_2_2_1_1_0_0_wf : DotDims.WF S1x512x1024 S1x2048x1024 S1x512x2048 [2] [2] [1] [1] [0] [0]
  dot_S1x512x2048_S1x2048x1024_S1x512x1024_2_1_1_2_0_0_wf : DotDims.WF S1x512x2048 S1x2048x1024 S1x512x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S16384x1024.size a
  hwx0_9 : ∀ i : grid0.Coords, EltTy.bits .bf16 = 32 ∨ (Rect.block (s := S16384x1024) S512x1024.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1024.size a ≤ S16384x1024.size a
  hwx0_10 : ∀ i : grid0.Coords, EltTy.bits .bf16 = 32 ∨ (Rect.block (s := S16384x1024) S512x1024.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x1024.size a ≤ S16384x1024.size a
  hwx0_11 : ∀ i : grid0.Coords, EltTy.bits .bf16 = 32 ∨ (Rect.block (s := S16384x1024) S512x1024.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S8x2048x1024.size a
  hwx1_0 : ∀ i : grid1.Coords, EltTy.bits .bf16 = 32 ∨ (Rect.block (s := S8x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S8x2048x1024.size a
  hwx1_1 : ∀ i : grid1.Coords, EltTy.bits .bf16 = 32 ∨ (Rect.block (s := S8x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S8x2048x1024.size a
  hwx1_2 : ∀ i : grid1.Coords, EltTy.bits .bf16 = 32 ∨ (Rect.block (s := S8x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S8x2048x1024.size a
  hwx1_3 : ∀ i : grid1.Coords, EltTy.bits .f32 = 32 ∨ (Rect.block (s := S8x2048x1024) S1x512x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1x512x1024_S1x2048x1024_S1x512x2048_2_2_1_1_0_0 : DotDims S1x512x1024 S1x2048x1024 S1x512x2048 where
  lhsContracting := [2]
  rhsContracting := [2]
  lhsNonContracting := [1]
  rhsNonContracting := [1]
  lhsBatch := [0]
  rhsBatch := [0]
  wf := dot_S1x512x1024_S1x2048x1024_S1x512x2048_2_2_1_1_0_0_wf
def dot_S1x512x2048_S1x2048x1024_S1x512x1024_2_1_1_2_0_0 : DotDims S1x512x2048 S1x2048x1024 S1x512x1024 where
  lhsContracting := [2]
  rhsContracting := [1]
  lhsNonContracting := [1]
  rhsNonContracting := [2]
  lhsBatch := [0]
  rhsBatch := [0]
  wf := dot_S1x512x2048_S1x2048x1024_S1x512x1024_2_1_1_2_0_0_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12_0) S512x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v12_1) S512x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v12_2) S512x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v13) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S1x1x1024 : Shape := ⟨3, ![1, 1, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8x2048x1024, .f32⟩
  | .hbm, ⟨10, _⟩ => ⟨S1x1x1024, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | .hbm, ⟨14, _⟩ => ⟨S1x1x1024, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S8x2048x2048, .f32⟩
  | .hbm, ⟨22, _⟩ => ⟨S_, .f32⟩
  | .hbm, ⟨23, _⟩ => ⟨S_, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048, .f32⟩
  | .hbm, ⟨28, _⟩ => ⟨S_, .f32⟩
  | .hbm, ⟨29, _⟩ => ⟨S8x2048, .f32⟩
  | .hbm, ⟨30, _⟩ => ⟨S8x2048, .f32⟩
  | .hbm, ⟨31, _⟩ => ⟨S8x2048x1, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S8x2048x2048, .f32⟩
  | .hbm, ⟨39, _⟩ => ⟨S8x2048x2048, .f32⟩
  | .hbm, ⟨40, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.AttnSpec.lean ====
/-
  Single-head attention behind three linear layers, written twice as index-by-index formulas over the
  extended reals: once the way the plain reference spells it (scores divided by the square root of the
  width, a softmax normalised before the last contraction) and once the way the tiled kernel spells it
  (the scale multiplied into the query projection, the softmax normalised after the last contraction).
  Indices: batch `n : Fin 8`, positions `i j : Fin 2048`, features `e f d : Fin 1024`.
  The float words that occur are kept as words; their values are the four lemmas at the end.
-/
import Idealize.ShloMosaic.PureOps.Ideal
import Idealize.ShloMosaic.PureOps.Ideal.Laws
import Idealize.ShloMosaic.Lib.ValueIdx

noncomputable section

namespace Cert.Attn

open Idealize.ShloMosaic

/-- A batch of sequences of feature rows. -/
abbrev Seq := Fin 8 → Fin 2048 → Fin 1024 → EReal
/-- A batch of score matrices (query position, key position). -/
abbrev Scores := Fin 8 → Fin 2048 → Fin 2048 → EReal

/-- An array over a rank-3, rank-2 or rank-1 shape as a function of its coordinates. -/
def un3 {a b c : Nat} (x : (⟨3, ![a, b, c]⟩ : Shape).Idx → EReal) : Fin a → Fin b → Fin c → EReal :=
  fun n s e => x (ValueIdx.ix3 n s e)
def un2 {a b : Nat} (x : (⟨2, ![a, b]⟩ : Shape).Idx → EReal) : Fin a → Fin b → EReal :=
  fun r c => x (ValueIdx.ix2 r c)
def un1 {a : Nat} (x : (⟨1, ![a]⟩ : Shape).Idx → EReal) : Fin a → EReal :=
  fun r => x (ValueIdx.ix1 r)

/-- The word of `-inf`, of `0.0`, of `1024.0` and of `0.03125`. -/
abbrev wNegInf : EReal := Ideal.ofBits .f32 0xFF800000#32
abbrev wZero : EReal := Ideal.ofBits .f32 0x00000000#32
abbrev wWidth : EReal := Ideal.ofBits .f32 0x44800000#32
abbrev wScale : EReal := Ideal.ofBits .f32 0x3D000000#32

/-- A linear layer `x ↦ x Wᵀ + b`: feature `f` of row `(n, s)` is row `s` of `X` against row `f` of `W`, plus `b f`. -/
def proj (X : Seq) (W : Fin 1024 → Fin 1024 → EReal) (b : Fin 1024 → EReal) : Seq :=
  fun n s f => (∑ e : Fin 1024, X n s e * W f e) + b f

/-! ## The reference's spelling -/

/-- Scores: the query row against the key row, divided by the square root of the width. -/
def refScore (q k : Seq) : Scores :=
  fun n i j => Ideal.div (∑ e : Fin 1024, q n i e * k n j e) (Ideal.sqrt wWidth)
/-- A row's maximum, folded from `-inf` and once more compared with `-inf`. -/
def refMax (s : Scores) : Fin 8 → Fin 2048 → EReal :=
  fun n i => max wNegInf ((Finset.univ : Finset (Fin 2048)).fold max wNegInf (fun j => s n i j))
/-- The shifted exponentials. -/
def refExp (s : Scores) : Scores := fun n i j => Ideal.exp (s n i j - refMax s n i)
/-- Their row sums, started at `0.0`. -/
def refSum (s : Scores) : Fin 8 → Fin 2048 → EReal := fun n i => wZero + ∑ j : Fin 2048, refExp s n i j
/-- The attention output: the normalised weights against the value rows. -/
def refOut (q k v : Seq) : Seq :=
  fun n i e => ∑ j : Fin 2048, Ideal.div (refExp (refScore q k) n i j) (refSum (refScore q k) n i) * v n j e
/-- The whole reference: three linear layers, then attention. -/
def refForm (Q K V : Seq) (Wq : Fin 1024 → Fin 1024 → EReal) (bq : Fin 1024 → EReal)
    (Wk : Fin 1024 → Fin 1024 → EReal) (bk : Fin 1024 → EReal) (Wv : Fin 1024 → Fin 1024 → EReal) (bv : Fin 1024 → EReal) : Seq :=
  refOut (proj Q Wq bq) (proj K Wk bk) (proj V Wv bv)

/-! ## The kernel's spelling -/

/-- The query projection with the scale multiplied in. -/
def kerQuery (q : Seq) : Seq := fun n s f => q n s f * wScale
/-- Scores: the scaled query row against the key row. -/
def kerScore (q' k : Seq) : Scores := fun n i j => ∑ d : Fin 1024, q' n i d * k n j d
/-- A row's maximum, folded from `-inf`. -/
def kerMax (s : Scores) : Fin 8 → Fin 2048 → EReal :=
  fun n i => (Finset.univ : Finset (Fin 2048)).fold max wNegInf (fun j => s n i j)
/-- The shifted exponentials. -/
def kerExp (s : Scores) : Scores := fun n i j => Ideal.exp (s n i j - kerMax s n i)
/-- Their row sums. -/
def kerSum (s : Scores) : Fin 8 → Fin 2048 → EReal := fun n i => ∑ j : Fin 2048, kerExp s n i j
/-- The attention output: the unnormalised weights against the value rows, divided by the row sum. -/
def kerOut (q' k v : Seq) : Seq :=
  fun n i e => Ideal.div (∑ j : Fin 2048, kerExp (kerScore q' k) n i j * v n j e) (kerSum (kerScore q' k) n i)
/-- The whole kernel: three linear layers (the first scaled), then attention. -/
def kerForm (Q K V : Seq) (Wq : Fin 1024 → Fin 1024 → EReal) (bq : Fin 1024 → EReal)
    (Wk : Fin 1024 → Fin 1024 → EReal) (bk : Fin 1024 → EReal) (Wv : Fin 1024 → Fin 1024 → EReal) (bv : Fin 1024 → EReal) : Seq :=
  kerOut (kerQuery (proj Q Wq bq)) (proj K Wk bk) (proj V Wv bv)

/-! ## The words' values -/

theorem wNegInf_eq : wNegInf = ⊥ := by simp [wNegInf, Ideal.ofBits, Ideal.ieee]
theorem wZero_eq : wZero = 0 := Ideal.ofBits_zero_f32
theorem wWidth_eq : wWidth = ((1024 : ℝ) : EReal) := by
  simp [wWidth, Ideal.ofBits, Ideal.ieee]
  rw [← EReal.coe_mul]
  exact congrArg _ (by norm_num)
theorem wScale_eq : wScale = (((1 : ℝ) / 32 : ℝ) : EReal) := by
  simp [wScale, Ideal.ofBits, Ideal.ieee]
  rw [← EReal.coe_mul]
  exact congrArg _ (by norm_num)

end Cert.Attn

end
-- ==== Proof.AttnAlgebra.lean ====
/-
  The two spellings of single-head attention agree once every input is a real number.

  With real inputs the three linear layers produce real numbers.  On real numbers
  * the scaled scores agree:  Σ_d (q_d · 1/32) · k_d = (Σ_d q_d · k_d) / √1024, because √1024 = 32;
  * a maximum folded from -∞ over a nonempty finite family of reals is a real, and comparing it once
    more with -∞ changes nothing;
  * the shifted exponentials are positive reals, so their row sum L is a positive real, L ≠ 0;
  * dividing after the last contraction or before it is the same:
      (Σ_j p_j · v_j) / L = Σ_j (p_j / L) · v_j.
  Every auxiliary statement is made over an abstract finite index type.
-/
import proofs.«149257_j1632087573105_2_alg».proof.Proof.AttnSpec

noncomputable section

namespace Cert.Attn

open Idealize.ShloMosaic

/-- A finite sum of real numbers, read in the extended reals, is the real sum. -/
theorem coe_finsum {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A maximum folded from `⊥` over a nonempty finite family of reals is a real. -/
theorem fold_max_coe {ι : Type*} (s : Finset ι) (hs : s.Nonempty) (f : ι → ℝ) :
    ∃ m : ℝ, s.fold max (⊥ : EReal) (fun j => (f j : EReal)) = (m : EReal) := by
  classical
  induction s using Finset.induction_on with
  | empty => exact absurd hs Finset.not_nonempty_empty
  | insert a s ha ih =>
    rw [Finset.fold_insert ha]
    rcases s.eq_empty_or_nonempty with h | h
    · subst h
      exact ⟨f a, by rw [Finset.fold_empty, max_eq_left bot_le]⟩
    · obtain ⟨m, hm⟩ := ih h
      exact ⟨max (f a) m, by rw [hm]; exact (EReal.coe_strictMono.monotone.map_max).symm⟩

/-- The square root of the width is 32. -/
theorem sqrt_width : Ideal.sqrt wWidth = ((32 : ℝ) : EReal) := by
  rw [wWidth_eq, Ideal.sqrt_coe, if_neg (by norm_num)]
  congr 1
  rw [show (1024 : ℝ) = 32 ^ 2 by norm_num, Real.sqrt_sq (by norm_num)]

/-- The kernel's score of a real query row against a real key row. -/
theorem ker_score {D : Type*} [Fintype D] (q k : D → ℝ) :
    ∑ d, ((q d : EReal) * wScale) * (k d : EReal) = (((∑ d, q d * k d) * (1 / 32) : ℝ) : EReal) := by
  rw [wScale_eq]
  simp only [← EReal.coe_mul, coe_finsum]
  rw [EReal.coe_eq_coe_iff, Finset.sum_mul]
  exact Finset.sum_congr rfl (fun d _ => by ring)

/-- The reference's score of a real query row against a real key row. -/
theorem ref_score {D : Type*} [Fintype D] (q k : D → ℝ) :
    Ideal.div (∑ e, (q e : EReal) * (k e : EReal)) (Ideal.sqrt wWidth)
      = (((∑ d, q d * k d) * (1 / 32) : ℝ) : EReal) := by
  rw [sqrt_width, Ideal.div_coe (by norm_num : (32 : ℝ) ≠ 0)]
  simp only [← EReal.coe_mul, coe_finsum]

/-- The softmax against the value rows, normalised after or before the last contraction, on a row of
    real scores `s` and a column of real values `v`. -/
theorem attn_core {J : Type*} [Fintype J] [Nonempty J] (s v : J → ℝ) :
    Ideal.div
        (∑ j, Ideal.exp ((s j : EReal) - Finset.univ.fold max wNegInf (fun j => (s j : EReal))) * (v j : EReal))
        (∑ j, Ideal.exp ((s j : EReal) - Finset.univ.fold max wNegInf (fun j => (s j : EReal))))
      = ∑ j, Ideal.div
          (Ideal.exp ((s j : EReal) - max wNegInf (Finset.univ.fold max wNegInf (fun j => (s j : EReal)))))
          (wZero + ∑ j, Ideal.exp ((s j : EReal) - max wNegInf (Finset.univ.fold max wNegInf (fun j => (s j : EReal)))))
          * (v j : EReal) := by
  obtain ⟨m, hm⟩ := fold_max_coe Finset.univ Finset.univ_nonempty s
  rw [wNegInf_eq, wZero_eq, hm, max_eq_right bot_le, zero_add]
  have hexp : ∀ j, Ideal.exp ((s j : EReal) - (m : EReal)) = ((Real.exp (s j - m) : ℝ) : EReal) :=
    fun j => by rw [← EReal.coe_sub, Ideal.exp_coe]
  have hL : (∑ j, Real.exp (s j - m)) ≠ 0 :=
    (Finset.sum_pos (fun j _ => Real.exp_pos _) Finset.univ_nonempty).ne'
  simp only [hexp, ← EReal.coe_mul, coe_finsum, Ideal.div_coe hL]
  rw [EReal.coe_eq_coe_iff, Finset.sum_mul]
  exact Finset.sum_congr rfl (fun j _ => by ring)

/-- A linear layer on real inputs produces reals. -/
theorem proj_real (X : Seq) (W : Fin 1024 → Fin 1024 → EReal) (b : Fin 1024 → EReal)
    (hX : ∀ n s e, ∃ r : ℝ, X n s e = (r : EReal)) (hW : ∀ f e, ∃ r : ℝ, W f e = (r : EReal))
    (hb : ∀ f, ∃ r : ℝ, b f = (r : EReal)) :
    ∃ R : Fin 8 → Fin 2048 → Fin 1024 → ℝ, proj X W b = fun n s f => (R n s f : EReal) := by
  choose xR hx using hX
  choose wR hw using hW
  choose bR hbR using hb
  refine ⟨fun n s f => (∑ e, xR n s e * wR f e) + bR f, ?_⟩
  funext n s f
  unfold proj
  simp only [hx, hw, hbR, ← EReal.coe_mul, coe_finsum, ← EReal.coe_add]

theorem kerForm_eq_refForm (Q K V : Seq) (Wq Wk Wv : Fin 1024 → Fin 1024 → EReal) (bq bk bv : Fin 1024 → EReal)
    (hQ : ∀ n s e, ∃ r : ℝ, Q n s e = (r : EReal)) (hK : ∀ n s e, ∃ r : ℝ, K n s e = (r : EReal)) (hV : ∀ n s e, ∃ r : ℝ, V n s e = (r : EReal))
    (hWq : ∀ f e, ∃ r : ℝ, Wq f e = (r : EReal)) (hbq : ∀ f, ∃ r : ℝ, bq f = (r : EReal))
    (hWk : ∀ f e, ∃ r : ℝ, Wk f e = (r : EReal)) (hbk : ∀ f, ∃ r : ℝ, bk f = (r : EReal))
    (hWv : ∀ f e, ∃ r : ℝ, Wv f e = (r : EReal)) (hbv : ∀ f, ∃ r : ℝ, bv f = (r : EReal)) :
    kerForm Q K V Wq bq Wk bk Wv bv = refForm Q K V Wq bq Wk bk Wv bv := by
  obtain ⟨qR, hq⟩ := proj_real Q Wq bq hQ hWq hbq
  obtain ⟨kR, hk⟩ := proj_real K Wk bk hK hWk hbk
  obtain ⟨vR, hv⟩ := proj_real V Wv bv hV hWv hbv
  unfold kerForm refForm
  rw [hq, hk, hv]
  have hS1 : kerScore (kerQuery (fun n s f => (qR n s f : EReal))) (fun n s f => (kR n s f : EReal))
      = fun n i j => (((∑ d, qR n i d * kR n j d) * (1 / 32) : ℝ) : EReal) := by
    funext n i j
    exact ker_score (fun d => qR n i d) (fun d => kR n j d)
  have hS2 : refScore (fun n s f => (qR n s f : EReal)) (fun n s f => (kR n s f : EReal))
      = fun n i j => (((∑ d, qR n i d * kR n j d) * (1 / 32) : ℝ) : EReal) := by
    funext n i j
    exact ref_score (fun d => qR n i d) (fun d => kR n j d)
  funext n i e
  unfold kerOut refOut
  rw [hS1, hS2]
  exact attn_core (fun j => (∑ d, qR n i d * kR n j d) * (1 / 32)) (fun j => vR n j e)

end Cert.Attn

end
-- ==== Proof.InputsReal.lean ====
import proofs.«149257_j1632087573105_2_alg».proof.Pre_finite_inputs
import proofs.«149257_j1632087573105_2_alg».proof.Proof.Gen.Pre_finite_inputs
import Idealize.ShloMosaic.PureOps.Ideal.Laws
import Idealize.ShloMosaic.Lib.ReduceAll
import Idealize.ShloMosaic.Lib.ValueIdx

/-!
# From the finiteness precondition to real-valued inputs

The precondition tests, for each of the nine float arguments, `|x| < +∞` at every entry, takes the
conjunction of these tests over all entries of the argument (a reduction by `and` over every axis), and
then the conjunction of the nine results. At the instance where floats are extended reals the test
`max x (-x) < ⊤` fails exactly at `⊥` and `⊤`, so the precondition holding says that every entry of every
argument is the coercion of a real number.
-/

namespace Cert.Pre_finite_inputs.RealInputs

open Cert.Pre_finite_inputs Idealize.ShloMosaic

/-- The rank-0 shape has exactly one index. -/
instance subsingleton_scalar_idx : Subsingleton S_.Idx := ⟨fun a b => funext fun d => d.elim0⟩

/-- The f32 pattern `0x7F800000` (sign 0, exponent all ones, fraction 0) denotes `+∞`. -/
theorem ofBits_inf : Ideal.ofBits .f32 0x7F800000#32 = (⊤ : EReal) := by
  simp [Ideal.ofBits, Ideal.ieee]

/-- An extended real whose absolute value `max x (-x)` compares below `+∞` is a real number:
    at `⊥` the maximum is `-⊥ = ⊤`, at `⊤` it is `⊤`, and neither is below `⊤`. -/
theorem real_of_abs_lt_top (x : EReal)
    (h : Ideal.cmp .olt (max x (-x)) (⊤ : EReal) = 1#1) : ∃ r : ℝ, x = (r : EReal) := by
  induction x using EReal.rec with
  | bot => exact absurd h (by simp [Ideal.cmp])
  | coe r => exact ⟨r, rfl⟩
  | top => exact absurd h (by simp [Ideal.cmp])

/-- One argument's test, over an arbitrary shape: if the conjunction over all entries of
    `|x| < +∞` (a reduction by `and` into the one-index result) is `1`, every entry of `x` is real. -/
theorem real_of_all_finite {s : Shape} {axes : List (Fin s.rank)} (x : FVec Ideal s .f32)
    (hb : S_.BroadcastsInDim s (![] : Fin 0 → Fin s.rank)) (hr : s.ReducesTo axes S_) (hu : 0 < S_.numel)
    (init : IVec S_ 1) (j0 : S_.Idx)
    (e : Host.reduce IntOp.andi
          (cmpf .olt (Host.absf x) (broadcastInDim s ![] hb (constant (F := Ideal) S_ .f32 0x7F800000#32)))
          init hr hu j0 = 1#1) :
    ∀ j, ∃ r : ℝ, x j = (r : EReal) := by
  intro j
  have hj := Host.reduce_andi_all _ init hr hu j0 e j
  have hj' : Ideal.cmp .olt (max (x j) (-(x j))) (Ideal.ofBits .f32 0x7F800000#32) = 1#1 := hj
  rw [ofBits_inf] at hj'
  exact real_of_abs_lt_top (x j) hj'

/-- The precondition unfolds to the conjunction of nine all-entries tests; each conjunct makes its
    argument real-valued by `real_of_all_finite`. -/
theorem inputs_real (x0 x1 x2 : FVec Ideal S8x2048x1024 .f32) (x3 : FVec Ideal S1024x1024 .f32) (x4 : FVec Ideal S1024 .f32)
    (x5 : FVec Ideal S1024x1024 .f32) (x6 : FVec Ideal S1024 .f32) (x7 : FVec Ideal S1024x1024 .f32) (x8 : FVec Ideal S1024 .f32)
    (h : Cert.Pre_finite_inputs.fn (F := Ideal) x0 x1 x2 x3 x4 x5 x6 x7 x8 = (fun _ => 1#1)) :
    (∀ j, ∃ r : ℝ, x0 j = (r : EReal)) ∧ (∀ j, ∃ r : ℝ, x1 j = (r : EReal)) ∧ (∀ j, ∃ r : ℝ, x2 j = (r : EReal))
    ∧ (∀ j, ∃ r : ℝ, x3 j = (r : EReal)) ∧ (∀ j, ∃ r : ℝ, x4 j = (r : EReal)) ∧ (∀ j, ∃ r : ℝ, x5 j = (r : EReal))
    ∧ (∀ j, ∃ r : ℝ, x6 j = (r : EReal)) ∧ (∀ j, ∃ r : ℝ, x7 j = (r : EReal)) ∧ (∀ j, ∃ r : ℝ, x8 j = (r : EReal)) := by
  have h0 := congrFun h ValueIdx.ix0
  dsimp only [fn, fn_part1, fn_part2, andi] at h0
  simp only [IntOp.andi_eq_one] at h0
  obtain ⟨⟨⟨⟨⟨⟨⟨⟨e0, e1⟩, e2⟩, e3⟩, e4⟩, e5⟩, e6⟩, e7⟩, e8⟩ := h0
  exact ⟨real_of_all_finite x0 _ _ _ _ _ e0, real_of_all_finite x1 _ _ _ _ _ e1,
    real_of_all_finite x2 _ _ _ _ _ e2, real_of_all_finite x3 _ _ _ _ _ e3,
    real_of_all_finite x4 _ _ _ _ _ e4, real_of_all_finite x5 _ _ _ _ _ e5,
    real_of_all_finite x6 _ _ _ _ _ e6, real_of_all_finite x7 _ _ _ _ _ e7,
    real_of_all_finite x8 _ _ _ _ _ e8⟩

end Cert.Pre_finite_inputs.RealInputs
-- ==== Proof.RefIsSpec.lean ====
/-
  The reference program's result, read index by index, is the reference formula of single-head attention behind
  three linear layers. Stage by stage, from the inside out: each linear layer at `(n, s, f)` is a row of the input
  against a row of the weights plus a bias entry; a score at `(n, i, j)` is the query row against the key row divided
  by the square root of the width; a row's maximum is the fold of `max` from `-inf` over the key positions (the order in
  which the positions are visited does not matter, `max` on the extended reals being commutative and associative),
  compared once more with `-inf`; then the shifted exponentials, their row sums from `0.0`, the normalised weights,
  and the contraction of the weights against the value rows. Every step is the stage's reading at an index, an
  identification of the stage's operand indices with indices built from coordinates, and the instance's operations
  named as the operations on the extended reals they are.
-/
import proofs.«149257_j1632087573105_2_alg».proof.Proof.Gen.ReferenceIdeal.Read
import proofs.«149257_j1632087573105_2_alg».proof.Proof.AttnSpec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.Attn Idealize.ShloMosaic Idealize.ShloMosaic.ValueIdx

/-! ## Index arithmetic

Each composed index function of the generated reading, evaluated at an index built from coordinates, is again an
index built from coordinates. -/

theorem lidx_proj (n : Fin 8) (s : Fin 2048) (f k : Fin 1024) : lidx_main_v0 (ix3 n s f) k = ix3 n s k :=
  funext fun a => Fin.ext (by match a with | ⟨0, _⟩ => rfl | ⟨1, _⟩ => rfl | ⟨2, _⟩ => rfl)
theorem ridx_proj (n : Fin 8) (s : Fin 2048) (f k : Fin 1024) : ridx_main_v0 (ix3 n s f) k = ix2 f k :=
  funext fun a => Fin.ext (by match a with | ⟨0, _⟩ => rfl | ⟨1, _⟩ => rfl)
theorem bidx_proj (n : Fin 8) (s : Fin 2048) (f : Fin 1024) : idx_main_v1 (idx_main_v2 (ix3 n s f)) = ix1 f :=
  funext fun a => Fin.ext (by match a with | ⟨0, _⟩ => rfl)
theorem lidx_score (n : Fin 8) (i j : Fin 2048) (k : Fin 1024) : lidx_main_v12 (ix3 n i j) k = ix3 n i k :=
  funext fun a => Fin.ext (by match a with | ⟨0, _⟩ => rfl | ⟨1, _⟩ => rfl | ⟨2, _⟩ => rfl)
theorem ridx_score (n : Fin 8) (i j : Fin 2048) (k : Fin 1024) : ridx_main_v12 (ix3 n i j) k = ix3 n j k :=
  funext fun a => Fin.ext (by match a with | ⟨0, _⟩ => rfl | ⟨1, _⟩ => rfl | ⟨2, _⟩ => rfl)
theorem idx_row (n : Fin 8) (i j : Fin 2048) : idx_main_v19 (idx_main_v20 (ix3 n i j)) = ix2 n i :=
  funext fun a => Fin.ext (by match a with | ⟨0, _⟩ => rfl | ⟨1, _⟩ => rfl)
theorem idx_sum (n : Fin 8) (i k : Fin 2048) : idx_main_v23 (ix2 n i) k = ix3 n i k :=
  funext fun a => Fin.ext (by match a with | ⟨0, _⟩ => rfl | ⟨1, _⟩ => rfl | ⟨2, _⟩ => rfl)
theorem lidx_out (n : Fin 8) (i : Fin 2048) (e : Fin 1024) (k : Fin 2048) : lidx_main_v27 (ix3 n i e) k = ix3 n i k :=
  funext fun a => Fin.ext (by match a with | ⟨0, _⟩ => rfl | ⟨1, _⟩ => rfl | ⟨2, _⟩ => rfl)
theorem ridx_out (n : Fin 8) (i : Fin 2048) (e : Fin 1024) (k : Fin 2048) : ridx_main_v27 (ix3 n i e) k = ix3 n k e :=
  funext fun a => Fin.ext (by match a with | ⟨0, _⟩ => rfl | ⟨1, _⟩ => rfl | ⟨2, _⟩ => rfl)

/-- The reduced axis of the score array is its last one: the index over `(n, i)` with `k` inserted is `(n, i, k)`. -/
theorem lift_row (h : S8x2048x2048.Reduces [2] S8x2048) (n : Fin 8) (i k : Fin 2048) : h.lift (ix2 n i) k = ix3 n i k :=
  funext fun a => Fin.ext (by match a with | ⟨0, _⟩ => rfl | ⟨1, _⟩ => rfl | ⟨2, _⟩ => rfl)

/-! ## The three linear layers -/

section
variable (x0 x1 x2 : (⟨S8x2048x1024, .f32⟩ : BufTy).Contents (Elt Ideal)) (x3 : (⟨S1024x1024, .f32⟩ : BufTy).Contents (Elt Ideal))
  (x4 : (⟨S1024, .f32⟩ : BufTy).Contents (Elt Ideal)) (x5 : (⟨S1024x1024, .f32⟩ : BufTy).Contents (Elt Ideal))
  (x6 : (⟨S1024, .f32⟩ : BufTy).Contents (Elt Ideal)) (x7 : (⟨S1024x1024, .f32⟩ : BufTy).Contents (Elt Ideal))
  (x8 : (⟨S1024, .f32⟩ : BufTy).Contents (Elt Ideal))

/-- A row of the input against a row of the weights, plus the bias entry. -/
theorem proj_v3 (n : Fin 8) (s : Fin 2048) (f : Fin 1024) :
    val_main_v3 (F := Ideal) x0 x3 x4 (ix3 n s f) = proj (un3 x0) (un2 x3) (un1 x4) n s f := by
  rw [val_main_v3_apply, val_main_v0_apply, val_main_v2_apply, val_main_v1_apply]
  simp only [lidx_proj, ridx_proj, bidx_proj, Ideal.addf_def]
  rfl

/-- The key and value layers are the query layer's function at other arguments. -/
theorem v7_eq_v3 : @val_main_v7 Ideal _ = @val_main_v3 Ideal _ := rfl
theorem v11_eq_v3 : @val_main_v11 Ideal _ = @val_main_v3 Ideal _ := rfl

/-! ## Scores, row maxima, exponentials, row sums -/

theorem score_v15 (n : Fin 8) (i j : Fin 2048) :
    val_main_v15 (F := Ideal) x0 x1 x3 x4 x5 x6 (ix3 n i j)
      = refScore (proj (un3 x0) (un2 x3) (un1 x4)) (proj (un3 x1) (un2 x5) (un1 x6)) n i j := by
  rw [val_main_v15_apply, val_main_v12_apply, val_main_v14_apply, val_main_v13_apply, val_main_cst_apply]
  simp only [lidx_score, ridx_score, v7_eq_v3, proj_v3, Ideal.hostDivf_def, Ideal.hostUnary_sqrt_def, Ideal.ofBits_def]
  rfl

/-- The maximum over the last axis, taken by the host in row-major order, is the fold of `max` over that axis's
    coordinates: `max` on the extended reals commutes and associates, so the order does not matter. -/
theorem max_v16 (n : Fin 8) (i : Fin 2048) :
    val_main_v16 (F := Ideal) x0 x1 x3 x4 x5 x6 (ix2 n i)
      = (Finset.univ : Finset (Fin 2048)).fold max wNegInf
          (fun j => refScore (proj (un3 x0) (un2 x3) (un1 x4)) (proj (un3 x1) (un2 x5) (un1 x6)) n i j) := by
  have hred : S8x2048x2048.Reduces [2] S8x2048 := by decide
  unfold val_main_v16
  rw [Host.reduce_eq_fold_single _ _ _ reducesTo_S8x2048x2048_S8x2048_d2 hred h_S_ (ix2 n i)]
  have hf : (val_main_v15 (F := Ideal) x0 x1 x3 x4 x5 x6 ∘ hred.lift (ix2 n i))
      = fun j : Fin 2048 => refScore (proj (un3 x0) (un2 x3) (un1 x4)) (proj (un3 x1) (un2 x5) (un1 x6)) n i j :=
    funext fun (j : Fin 2048) =>
      (congrArg (val_main_v15 (F := Ideal) x0 x1 x3 x4 x5 x6) (lift_row hred n i j)).trans (score_v15 x0 x1 x3 x4 x5 x6 n i j)
  rw [hf]
  rfl

theorem max_v18 (n : Fin 8) (i : Fin 2048) :
    val_main_v18 (F := Ideal) x0 x1 x3 x4 x5 x6 (ix2 n i)
      = refMax (refScore (proj (un3 x0) (un2 x3) (un1 x4)) (proj (un3 x1) (un2 x5) (un1 x6))) n i := by
  rw [val_main_v18_apply, val_main_v17_apply, val_main_cst_1_apply, max_v16]
  rfl

theorem exp_v22 (n : Fin 8) (i j : Fin 2048) :
    val_main_v22 (F := Ideal) x0 x1 x3 x4 x5 x6 (ix3 n i j)
      = refExp (refScore (proj (un3 x0) (un2 x3) (un1 x4)) (proj (un3 x1) (un2 x5) (un1 x6))) n i j := by
  rw [val_main_v22_apply, val_main_v21_apply, val_main_v20_apply, val_main_v19_apply, idx_row, max_v18, score_v15]
  rfl

theorem sum_v23 (n : Fin 8) (i : Fin 2048) :
    val_main_v23 (F := Ideal) x0 x1 x3 x4 x5 x6 (ix2 n i)
      = refSum (refScore (proj (un3 x0) (un2 x3) (un1 x4)) (proj (un3 x1) (un2 x5) (un1 x6))) n i := by
  rw [val_main_v23_apply, val_main_cst_2_apply]
  simp only [idx_sum, exp_v22, Ideal.ofBits_def]
  rfl

/-! ## The normalised weights and the last contraction -/

theorem weight_v26 (n : Fin 8) (i j : Fin 2048) :
    val_main_v26 (F := Ideal) x0 x1 x3 x4 x5 x6 (ix3 n i j)
      = Ideal.div (refExp (refScore (proj (un3 x0) (un2 x3) (un1 x4)) (proj (un3 x1) (un2 x5) (un1 x6))) n i j)
          (refSum (refScore (proj (un3 x0) (un2 x3) (un1 x4)) (proj (un3 x1) (un2 x5) (un1 x6))) n i) := by
  rw [val_main_v26_apply, val_main_v25_apply, val_main_v24_apply, exp_v22]
  rw [show idx_main_v24 (idx_main_v25 (ix3 n i j)) = ix2 n i from idx_row n i j, sum_v23]
  rfl

end

/-- The reference program's result, read index by index, is the reference formula of the attention. -/
theorem ref_eq (x0 x1 x2 : FVec Ideal S8x2048x1024 .f32) (x3 : FVec Ideal S1024x1024 .f32) (x4 : FVec Ideal S1024 .f32)
    (x5 : FVec Ideal S1024x1024 .f32) (x6 : FVec Ideal S1024 .f32) (x7 : FVec Ideal S1024x1024 .f32) (x8 : FVec Ideal S1024 .f32)
    (n : Fin 8) (i : Fin 2048) (e : Fin 1024) :
    Cert.ReferenceIdeal.Read.val_main_v27 (F := Ideal) x0 x1 x2 x3 x4 x5 x6 x7 x8 (ValueIdx.ix3 n i e)
      = Cert.Attn.refForm (Cert.Attn.un3 x0) (Cert.Attn.un3 x1) (Cert.Attn.un3 x2) (Cert.Attn.un2 x3) (Cert.Attn.un1 x4)
          (Cert.Attn.un2 x5) (Cert.Attn.un1 x6) (Cert.Attn.un2 x7) (Cert.Attn.un1 x8) n i e := by
  rw [val_main_v27_apply]
  simp only [lidx_out, ridx_out, v11_eq_v3, weight_v26, proj_v3]
  rfl

end Cert.ReferenceIdeal.RefValue

end
-- ==== Proof.KernelRun.lean ====
/-
  The kernel program's run with its result named. Every weakly fair execution of the program's main function
  (a stretch of host layout operations, the projection region, three host reshapes, the attention region)
  terminates without a fault; in the final state the result array holds what the last segment boundary's
  buffer contents give it, and the nine argument arrays are as launched. The final contents are the fold of
  the segments over the launch memory: each host stretch applied to the contents before it, each region's
  arrays replaced by what its write-backs leave. Only the conclusion differs from the frame statement: the
  result array is kept beside the arguments.
-/
import proofs.«149257_j1632087573105_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement
set_option backward.isDefEq.respectTransparency.types false in
/-- From any memory with zero counters every weakly fair execution of the main function terminates, nothing
    faulting, with the result array at the last boundary's contents and the arguments as launched. -/
theorem run_named : θ_run defs (onTc (τ := τ) (main (F := F))) ⟨m, fun _ => 0, ρ⟩ (fun r => ∀ c : Dev nD,
      r.2.mem ((c.tc : Thread nD τ).loc main_v16) = W4 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v16 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Named

end
-- ==== Proof.ProjPayload.lean ====
/-
  The projection region's body at an entry. The body multiplies a 512-row block of the flattened input by the
  whole transposed weight matrix into a zero accumulator, adds the bias row to every row and (for the query
  projection only) multiplies by the scale word. At entry (r, c) of the block that is the sum over k of
  block[r, k] * weight[k, c], plus bias[0, c] — times the scale for the query projection. Format changes are
  the identity on the extended reals.
-/
import proofs.«149257_j1632087573105_2_alg».proof.Proof.Gen.KernelIdeal.Skeleton
import proofs.«149257_j1632087573105_2_alg».proof.Proof.AttnSpec
import Idealize.ShloMosaic.Lib.Pipeline.Value
import Idealize.ShloMosaic.Lib.ValueIdx
import Idealize.ShloMosaic.PureOps.Ideal.Laws

noncomputable section

namespace Cert.KernelIdeal.Proj

open Cert.KernelIdeal Cert.KernelIdeal.Gen Idealize.ShloMosaic Idealize.ShloMosaic.ValueIdx

/-! ## The block product's operand indices -/

theorem lhs_row (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_k (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_k (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_col (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The block product into a zero accumulator, at entry (r, c): row r of the block against column c of the weights. -/
theorem matmul_entry (x : FVec Ideal S512x1024 .bf16) (w : FVec Ideal S1024x1024 .bf16) (r : Fin 512) (c : Fin 1024) :
    matmul dot_S512x1024_S1024x1024_S512x1024_1_0_0_1_n_n none x w (constant (F := Ideal) S512x1024 .f32 0x00000000#32) (ix2 r c)
      = ∑ k : Fin 1024, x (ix2 r k) * w (ix2 k c) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r c) ((contrEquiv1 dot_S512x1024_S1024x1024_S512x1024_1_0_0_1_n_n 1024 rfl rfl).symm k) = ix2 r k := funext fun a => Fin.ext (by
    match a with
    | ⟨0, _⟩ => exact lhs_row _ _
    | ⟨1, _⟩ => exact (lhs_k _ _).trans hk)
  have er : dot_S512x1024_S1024x1024_S512x1024_1_0_0_1_n_n.rhsIdx (ix2 r c) ((contrEquiv1 dot_S512x1024_S1024x1024_S512x1024_1_0_0_1_n_n 1024 rfl rfl).symm k) = ix2 k c := funext fun a => Fin.ext (by
    match a with
    | ⟨0, _⟩ => exact (rhs_k _ _).trans hk
    | ⟨1, _⟩ => exact rhs_col _ _)
  rw [el, er]

/-- The bias row broadcast down the 512 rows, at entry (r, c), is the row's entry c. -/
theorem bias_entry (b : FVec Ideal S1x1024 .f32) (r : Fin 512) (c : Fin 1024) :
    broadcastTo S512x1024 b broadcasts_S1x1024_S512x1024 (ix2 r c) = b (ix2 0 c) := by
  refine broadcastTo_apply b broadcasts_S1x1024_S512x1024 (ix2 r c) (ix2 0 c) (fun a => ?_)
  match a with
  | ⟨0, _⟩ => show (0 : Nat) = if (1 : Nat) = 1 then 0 else _; rw [if_pos rfl]
  | ⟨1, _⟩ => show c.val = if (1024 : Nat) = 1 then 0 else c.val; rw [if_neg (by decide)]

/-! ## The three stored blocks -/

/-- The key projection's block at (r, c). -/
theorem key_entry (x : Vec Ideal S512x1024 .f32) (w : Vec Ideal S1024x1024 .bf16) (b : Vec Ideal S1x1024 .f32)
    (r : Fin 512) (c : Fin 1024) :
    k0_pay3 x w b (ix2 r c) = (∑ k : Fin 1024, x (ix2 r k) * w (ix2 k c)) + b (ix2 0 c) := by
  unfold k0_pay3
  simp only [shapeCast_self]
  rw [truncf_apply, addf_apply, bias_entry, matmul_entry]
  rfl

/-- The value projection's block at (r, c): the product is computed in one part of the body and the bias added in the next. -/
theorem value_entry (x : Vec Ideal S512x1024 .f32) (w : Vec Ideal S1024x1024 .bf16) (b : Vec Ideal S1x1024 .f32)
    (r : Fin 512) (c : Fin 1024) :
    k0_pay1 (k0_pay4 x w) b (ix2 r c) = (∑ k : Fin 1024, x (ix2 r k) * w (ix2 k c)) + b (ix2 0 c) := by
  unfold k0_pay1 k0_pay4
  simp only [shapeCast_self]
  rw [truncf_apply, addf_apply, bias_entry, matmul_entry]
  rfl

/-- The query projection's block at (r, c), with the scale multiplied in. -/
theorem query_entry (x : Vec Ideal S512x1024 .f32) (w : Vec Ideal S1024x1024 .bf16) (b : Vec Ideal S1x1024 .f32)
    (r : Fin 512) (c : Fin 1024) :
    k0_pay2 x w b (ix2 r c) = ((∑ k : Fin 1024, x (ix2 r k) * w (ix2 k c)) + b (ix2 0 c)) * Cert.Attn.wScale := by
  unfold k0_pay2
  simp only [shapeCast_self]
  rw [truncf_apply, mulf_apply, addf_apply, bias_entry, matmul_entry]
  rfl

end Cert.KernelIdeal.Proj

end
-- ==== Proof.ProjRegion.lean ====
/-
  The projection region as whole arrays. The region walks 32 grid points; point t reads rows 512·t … 512·t + 511
  of each flattened input, the whole of each transposed weight matrix and bias row, and writes rows
  512·t … 512·t + 511 of each of the three outputs. Every row of an output is written by exactly one point,
  so after the region each output array is, entry by entry, the corresponding input row against the weight
  column plus the bias entry (the query output also times the scale word), whatever the arrays held before.
  Stated for any contents `V` of the buffers at the region's entry.
-/
import proofs.«149257_j1632087573105_2_alg».proof.Proof.Gen.KernelIdeal.Frame
import proofs.«149257_j1632087573105_2_alg».proof.Proof.ProjPayload
import Idealize.ShloMosaic.Lib.Pipeline.Value

set_option maxRecDepth 16384

noncomputable section

namespace Cert.KernelIdeal.Proj

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zero_off : (![0, 0] : Fin 2 → Nat) = fun _ => 0 := funext fun a => by fin_cases a <;> rfl

/-- A projection's rows: entry (R, c) is row R of the input against column c of the transposed weights, plus the bias entry c. -/
def rows (x : S16384x1024.Idx → EReal) (w : S1024x1024.Idx → EReal) (b : S1x1024.Idx → EReal) (R : Fin 16384) (c : Fin 1024) : EReal :=
  (∑ k : Fin 1024, x (ix2 R k) * w (ix2 k c)) + b (ix2 0 c)

/-- The same as an array over the flattened shape, optionally times a factor. -/
def rowsArr (s : EReal → EReal) (x : S16384x1024.Idx → EReal) (w : S1024x1024.Idx → EReal) (b : S1x1024.Idx → EReal) : S16384x1024.Idx → EReal :=
  fun i => s (rows x w b ⟨(i 0).val, (i 0).isLt⟩ ⟨(i 1).val, (i 1).isLt⟩)

/-- The index maps over the grid: a row-block window sits at block (t, 0), a resident window at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem point_lt (t : Fin cfg0.N) : t.val < 32 := t.isLt

/-- Input window 0's block at point t, entry (r, k), is row 512·t + r of its array. -/
theorem in_blk0 (c : Dev nD) (t : Fin cfg0.N) (r : Fin 512) (k : Fin 1024) :
    iblk0 V c 0 t (ix2 r k) = V c (Pipeline.arrRef spec0 0) (ix2 (⟨t.val * 512 + r.val, by have := point_lt t; have := r.isLt; omega⟩ : Fin 16384) k) := by
  show V c (Pipeline.arrRef spec0 0) (((cfg0.win 0).blk t).view.emb (ix2 r k)) = _
  refine congrArg (V c (Pipeline.arrRef spec0 0)) (funext fun a => Fin.ext ?_)
  have hf := idx_facts t
  match a with
  | ⟨0, _⟩ => show win0_0.index t (0 : Fin 2) * 512 + 1 * r.val = t.val * 512 + r.val; omega
  | ⟨1, _⟩ => show win0_0.index t (1 : Fin 2) * 1024 + 1 * k.val = k.val; omega

/-- Input window 1's block at point t, entry (r, k), is row 512·t + r of its array. -/
theorem in_blk1 (c : Dev nD) (t : Fin cfg0.N) (r : Fin 512) (k : Fin 1024) :
    iblk0 V c 1 t (ix2 r k) = V c (Pipeline.arrRef spec0 1) (ix2 (⟨t.val * 512 + r.val, by have := point_lt t; have := r.isLt; omega⟩ : Fin 16384) k) := by
  show V c (Pipeline.arrRef spec0 1) (((cfg0.win 1).blk t).view.emb (ix2 r k)) = _
  refine congrArg (V c (Pipeline.arrRef spec0 1)) (funext fun a => Fin.ext ?_)
  have hf := idx_facts t
  match a with
  | ⟨0, _⟩ => show win0_1.index t (0 : Fin 2) * 512 + 1 * r.val = t.val * 512 + r.val; omega
  | ⟨1, _⟩ => show win0_1.index t (1 : Fin 2) * 1024 + 1 * k.val = k.val; omega

/-- Input window 2's block at point t, entry (r, k), is row 512·t + r of its array. -/
theorem in_blk2 (c : Dev nD) (t : Fin cfg0.N) (r : Fin 512) (k : Fin 1024) :
    iblk0 V c 2 t (ix2 r k) = V c (Pipeline.arrRef spec0 2) (ix2 (⟨t.val * 512 + r.val, by have := point_lt t; have := r.isLt; omega⟩ : Fin 16384) k) := by
  show V c (Pipeline.arrRef spec0 2) (((cfg0.win 2).blk t).view.emb (ix2 r k)) = _
  refine congrArg (V c (Pipeline.arrRef spec0 2)) (funext fun a => Fin.ext ?_)
  have hf := idx_facts t
  match a with
  | ⟨0, _⟩ => show win0_2.index t (0 : Fin 2) * 512 + 1 * r.val = t.val * 512 + r.val; omega
  | ⟨1, _⟩ => show win0_2.index t (1 : Fin 2) * 1024 + 1 * k.val = k.val; omega

/-- Weight window 3's block at any point is its whole array. -/
theorem in_blk3 (c : Dev nD) (t : Fin cfg0.N) (k : Fin 1024) (cc : Fin 1024) :
    iblk0 V c 3 t (ix2 k cc) = V c (Pipeline.arrRef spec0 3) (ix2 k cc) := by
  show V c (Pipeline.arrRef spec0 3) (((cfg0.win 3).blk t).view.emb (ix2 k cc)) = _
  refine congrArg (V c (Pipeline.arrRef spec0 3)) (funext fun a => Fin.ext ?_)
  have hf := idx_facts t
  match a with
  | ⟨0, _⟩ => show win0_3.index t (0 : Fin 2) * 1024 + 1 * k.val = k.val; omega
  | ⟨1, _⟩ => show win0_3.index t (1 : Fin 2) * 1024 + 1 * cc.val = cc.val; omega

/-- Weight window 4's block at any point is its whole array. -/
theorem in_blk4 (c : Dev nD) (t : Fin cfg0.N) (k : Fin 1024) (cc : Fin 1024) :
    iblk0 V c 4 t (ix2 k cc) = V c (Pipeline.arrRef spec0 4) (ix2 k cc) := by
  show V c (Pipeline.arrRef spec0 4) (((cfg0.win 4).blk t).view.emb (ix2 k cc)) = _
  refine congrArg (V c (Pipeline.arrRef spec0 4)) (funext fun a => Fin.ext ?_)
  have hf := idx_facts t
  match a with
  | ⟨0, _⟩ => show win0_4.index t (0 : Fin 2) * 1024 + 1 * k.val = k.val; omega
  | ⟨1, _⟩ => show win0_4.index t (1 : Fin 2) * 1024 + 1 * cc.val = cc.val; omega

/-- Weight window 5's block at any point is its whole array. -/
theorem in_blk5 (c : Dev nD) (t : Fin cfg0.N) (k : Fin 1024) (cc : Fin 1024) :
    iblk0 V c 5 t (ix2 k cc) = V c (Pipeline.arrRef spec0 5) (ix2 k cc) := by
  show V c (Pipeline.arrRef spec0 5) (((cfg0.win 5).blk t).view.emb (ix2 k cc)) = _
  refine congrArg (V c (Pipeline.arrRef spec0 5)) (funext fun a => Fin.ext ?_)
  have hf := idx_facts t
  match a with
  | ⟨0, _⟩ => show win0_5.index t (0 : Fin 2) * 1024 + 1 * k.val = k.val; omega
  | ⟨1, _⟩ => show win0_5.index t (1 : Fin 2) * 1024 + 1 * cc.val = cc.val; omega

/-- Bias window 6's block at any point is its whole row. -/
theorem in_blk6 (c : Dev nD) (t : Fin cfg0.N) (cc : Fin 1024) :
    iblk0 V c 6 t (ix2 (0 : Fin 1) cc) = V c (Pipeline.arrRef spec0 6) (ix2 (0 : Fin 1) cc) := by
  show V c (Pipeline.arrRef spec0 6) (((cfg0.win 6).blk t).view.emb (ix2 (0 : Fin 1) cc)) = _
  refine congrArg (V c (Pipeline.arrRef spec0 6)) (funext fun a => Fin.ext ?_)
  have hf := idx_facts t
  match a with
  | ⟨0, _⟩ => show win0_6.index t (0 : Fin 2) * 1 + 1 * 0 = 0; omega
  | ⟨1, _⟩ => show win0_6.index t (1 : Fin 2) * 1024 + 1 * cc.val = cc.val; omega

/-- Bias window 7's block at any point is its whole row. -/
theorem in_blk7 (c : Dev nD) (t : Fin cfg0.N) (cc : Fin 1024) :
    iblk0 V c 7 t (ix2 (0 : Fin 1) cc) = V c (Pipeline.arrRef spec0 7) (ix2 (0 : Fin 1) cc) := by
  show V c (Pipeline.arrRef spec0 7) (((cfg0.win 7).blk t).view.emb (ix2 (0 : Fin 1) cc)) = _
  refine congrArg (V c (Pipeline.arrRef spec0 7)) (funext fun a => Fin.ext ?_)
  have hf := idx_facts t
  match a with
  | ⟨0, _⟩ => show win0_7.index t (0 : Fin 2) * 1 + 1 * 0 = 0; omega
  | ⟨1, _⟩ => show win0_7.index t (1 : Fin 2) * 1024 + 1 * cc.val = cc.val; omega

/-- Bias window 8's block at any point is its whole row. -/
theorem in_blk8 (c : Dev nD) (t : Fin cfg0.N) (cc : Fin 1024) :
    iblk0 V c 8 t (ix2 (0 : Fin 1) cc) = V c (Pipeline.arrRef spec0 8) (ix2 (0 : Fin 1) cc) := by
  show V c (Pipeline.arrRef spec0 8) (((cfg0.win 8).blk t).view.emb (ix2 (0 : Fin 1) cc)) = _
  refine congrArg (V c (Pipeline.arrRef spec0 8)) (funext fun a => Fin.ext ?_)
  have hf := idx_facts t
  match a with
  | ⟨0, _⟩ => show win0_8.index t (0 : Fin 2) * 1 + 1 * 0 = 0; omega
  | ⟨1, _⟩ => show win0_8.index t (1 : Fin 2) * 1024 + 1 * cc.val = cc.val; omega

/-! ## The query output (window 9) -/

/-- What point t writes back for the query output is block t of the whole-array function. -/
theorem flushed9_eq (c : Dev nD) (t : Fin cfg0.N) :
    (dat0 V c).flushed 9 t = ((cfg0.win 9).blk t).view.read (Elt Ideal)
      (rowsArr (· * Cert.Attn.wScale) (V c (Pipeline.arrRef spec0 0)) (V c (Pipeline.arrRef spec0 3)) (V c (Pipeline.arrRef spec0 6))) := by
  show (cfg0.win 9).cut (grid0.coords t) ((dat0 V c).after 9 t) = _
  rw [after0_9]
  unfold out0_9
  rw [View.canon_unit_zero zero_off]
  simp only [View.ld_unit_zero (S := S512x1024) zero_off, View.ld_unit_zero (S := S1024x1024) zero_off, View.ld_unit_zero (S := S1x1024) zero_off]
  funext j
  obtain ⟨r, cc, rfl⟩ : ∃ (r : Fin 512) (cc : Fin 1024), j = ix2 r cc := ⟨j 0, j 1, eq_ix2 j⟩
  refine (query_entry (iblk0 V c 0 t) (iblk0 V c 3 t) (iblk0 V c 6 t) r cc).trans ?_
  have hf := idx_facts t
  have he : ((cfg0.win 9).blk t).view.emb (ix2 r cc) = ix2 (⟨t.val * 512 + r.val, by have := point_lt t; have := r.isLt; omega⟩ : Fin 16384) cc := by
    funext a; apply Fin.ext
    match a with
    | ⟨0, _⟩ => show win0_9.index t (0 : Fin 2) * 512 + 1 * r.val = t.val * 512 + r.val; omega
    | ⟨1, _⟩ => show win0_9.index t (1 : Fin 2) * 1024 + 1 * cc.val = cc.val; omega
  show _ = rowsArr (· * Cert.Attn.wScale) _ _ _ (((cfg0.win 9).blk t).view.emb (ix2 r cc))
  rw [he]
  unfold rowsArr rows
  rw [in_blk6 V c t cc]
  simp only [in_blk0 V c t r, in_blk3 V c t]

/-- An index is in point t's block of the query output iff each coordinate is in the block's range. -/
theorem mem_blk9 (t : Fin cfg0.N) (i : S16384x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole (Pipeline.arrRef spec0 9)).slice (win0_9.rect t)).set ↔ _
  rw [View.set_slice_whole, Rect.mem_set_unit]
  exact Iff.rfl

/-- Every row of the query output is in the block of the point its row number divided by 512 names. -/
theorem cover9 (i : S16384x1024.Idx) : ∃ t : Fin cfg0.N, (cfg0.win 9).flush t = true ∧ i ∈ ((cfg0.win 9).blk t).view.set := by
  have hi0 : (i 0).val < 16384 := (i 0).isLt
  have hi1 : (i 1).val < 1024 := (i 1).isLt
  refine ⟨⟨(i 0).val / 512, by show (i 0).val / 512 < 32; omega⟩, flush0_9 _, ?_⟩
  rw [mem_blk9]
  have hf := idx_facts ⟨(i 0).val / 512, by show (i 0).val / 512 < 32; omega⟩
  intro a
  match a with
  | ⟨0, _⟩ => show win0_9.index _ (0 : Fin 2) * 512 ≤ (i 0).val ∧ (i 0).val < win0_9.index _ (0 : Fin 2) * 512 + 512; simp only [] at hf; omega
  | ⟨1, _⟩ => show win0_9.index _ (1 : Fin 2) * 1024 ≤ (i 1).val ∧ (i 1).val < win0_9.index _ (1 : Fin 2) * 1024 + 1024; simp only [] at hf; omega

/-- The query output array after the region. -/
theorem final9 (c : Dev nD) : (dat0 V c).arrAt 9 cfg0.N
    = rowsArr (· * Cert.Attn.wScale) (V c (Pipeline.arrRef spec0 0)) (V c (Pipeline.arrRef spec0 3)) (V c (Pipeline.arrRef spec0 6)) :=
  (dat0 V c).arrAt_eq_of_cover 9 _ (fun t _ => flushed9_eq V c t) (cover9)

/-! ## The key output (window 10) -/

/-- What point t writes back for the key output is block t of the whole-array function. -/
theorem flushed10_eq (c : Dev nD) (t : Fin cfg0.N) :
    (dat0 V c).flushed 10 t = ((cfg0.win 10).blk t).view.read (Elt Ideal)
      (rowsArr id (V c (Pipeline.arrRef spec0 1)) (V c (Pipeline.arrRef spec0 4)) (V c (Pipeline.arrRef spec0 7))) := by
  show (cfg0.win 10).cut (grid0.coords t) ((dat0 V c).after 10 t) = _
  rw [after0_10]
  unfold out0_10
  rw [View.canon_unit_zero zero_off]
  simp only [View.ld_unit_zero (S := S512x1024) zero_off, View.ld_unit_zero (S := S1024x1024) zero_off, View.ld_unit_zero (S := S1x1024) zero_off]
  funext j
  obtain ⟨r, cc, rfl⟩ : ∃ (r : Fin 512) (cc : Fin 1024), j = ix2 r cc := ⟨j 0, j 1, eq_ix2 j⟩
  refine (key_entry (iblk0 V c 1 t) (iblk0 V c 4 t) (iblk0 V c 7 t) r cc).trans ?_
  have hf := idx_facts t
  have he : ((cfg0.win 10).blk t).view.emb (ix2 r cc) = ix2 (⟨t.val * 512 + r.val, by have := point_lt t; have := r.isLt; omega⟩ : Fin 16384) cc := by
    funext a; apply Fin.ext
    match a with
    | ⟨0, _⟩ => show win0_10.index t (0 : Fin 2) * 512 + 1 * r.val = t.val * 512 + r.val; omega
    | ⟨1, _⟩ => show win0_10.index t (1 : Fin 2) * 1024 + 1 * cc.val = cc.val; omega
  show _ = rowsArr id _ _ _ (((cfg0.win 10).blk t).view.emb (ix2 r cc))
  rw [he]
  unfold rowsArr rows
  rw [in_blk7 V c t cc]
  simp only [in_blk1 V c t r, in_blk4 V c t]
  rfl

/-- An index is in point t's block of the key output iff each coordinate is in the block's range. -/
theorem mem_blk10 (t : Fin cfg0.N) (i : S16384x1024.Idx) :
    i ∈ ((cfg0.win 10).blk t).view.set ↔ ∀ a : Fin 2, win0_10.index t a * S512x1024.size a ≤ (i a).val ∧ (i a).val < win0_10.index t a * S512x1024.size a + S512x1024.size a := by
  show i ∈ ((View.whole (Pipeline.arrRef spec0 10)).slice (win0_10.rect t)).set ↔ _
  rw [View.set_slice_whole, Rect.mem_set_unit]
  exact Iff.rfl

/-- Every row of the key output is in the block of the point its row number divided by 512 names. -/
theorem cover10 (i : S16384x1024.Idx) : ∃ t : Fin cfg0.N, (cfg0.win 10).flush t = true ∧ i ∈ ((cfg0.win 10).blk t).view.set := by
  have hi0 : (i 0).val < 16384 := (i 0).isLt
  have hi1 : (i 1).val < 1024 := (i 1).isLt
  refine ⟨⟨(i 0).val / 512, by show (i 0).val / 512 < 32; omega⟩, flush0_10 _, ?_⟩
  rw [mem_blk10]
  have hf := idx_facts ⟨(i 0).val / 512, by show (i 0).val / 512 < 32; omega⟩
  intro a
  match a with
  | ⟨0, _⟩ => show win0_10.index _ (0 : Fin 2) * 512 ≤ (i 0).val ∧ (i 0).val < win0_10.index _ (0 : Fin 2) * 512 + 512; simp only [] at hf; omega
  | ⟨1, _⟩ => show win0_10.index _ (1 : Fin 2) * 1024 ≤ (i 1).val ∧ (i 1).val < win0_10.index _ (1 : Fin 2) * 1024 + 1024; simp only [] at hf; omega

/-- The key output array after the region. -/
theorem final10 (c : Dev nD) : (dat0 V c).arrAt 10 cfg0.N
    = rowsArr id (V c (Pipeline.arrRef spec0 1)) (V c (Pipeline.arrRef spec0 4)) (V c (Pipeline.arrRef spec0 7)) :=
  (dat0 V c).arrAt_eq_of_cover 10 _ (fun t _ => flushed10_eq V c t) (cover10)

/-! ## The value output (window 11) -/

/-- What point t writes back for the value output is block t of the whole-array function. -/
theorem flushed11_eq (c : Dev nD) (t : Fin cfg0.N) :
    (dat0 V c).flushed 11 t = ((cfg0.win 11).blk t).view.read (Elt Ideal)
      (rowsArr id (V c (Pipeline.arrRef spec0 2)) (V c (Pipeline.arrRef spec0 5)) (V c (Pipeline.arrRef spec0 8))) := by
  show (cfg0.win 11).cut (grid0.coords t) ((dat0 V c).after 11 t) = _
  rw [after0_11]
  unfold out0_11
  rw [View.canon_unit_zero zero_off]
  simp only [View.ld_unit_zero (S := S512x1024) zero_off, View.ld_unit_zero (S := S1024x1024) zero_off, View.ld_unit_zero (S := S1x1024) zero_off]
  funext j
  obtain ⟨r, cc, rfl⟩ : ∃ (r : Fin 512) (cc : Fin 1024), j = ix2 r cc := ⟨j 0, j 1, eq_ix2 j⟩
  refine (value_entry (iblk0 V c 2 t) (iblk0 V c 5 t) (iblk0 V c 8 t) r cc).trans ?_
  have hf := idx_facts t
  have he : ((cfg0.win 11).blk t).view.emb (ix2 r cc) = ix2 (⟨t.val * 512 + r.val, by have := point_lt t; have := r.isLt; omega⟩ : Fin 16384) cc := by
    funext a; apply Fin.ext
    match a with
    | ⟨0, _⟩ => show win0_11.index t (0 : Fin 2) * 512 + 1 * r.val = t.val * 512 + r.val; omega
    | ⟨1, _⟩ => show win0_11.index t (1 : Fin 2) * 1024 + 1 * cc.val = cc.val; omega
  show _ = rowsArr id _ _ _ (((cfg0.win 11).blk t).view.emb (ix2 r cc))
  rw [he]
  unfold rowsArr rows
  rw [in_blk8 V c t cc]
  simp only [in_blk2 V c t r, in_blk5 V c t]
  rfl

/-- An index is in point t's block of the value output iff each coordinate is in the block's range. -/
theorem mem_blk11 (t : Fin cfg0.N) (i : S16384x1024.Idx) :
    i ∈ ((cfg0.win 11).blk t).view.set ↔ ∀ a : Fin 2, win0_11.index t a * S512x1024.size a ≤ (i a).val ∧ (i a).val < win0_11.index t a * S512x1024.size a + S512x1024.size a := by
  show i ∈ ((View.whole (Pipeline.arrRef spec0 11)).slice (win0_11.rect t)).set ↔ _
  rw [View.set_slice_whole, Rect.mem_set_unit]
  exact Iff.rfl

/-- Every row of the value output is in the block of the point its row number divided by 512 names. -/
theorem cover11 (i : S16384x1024.Idx) : ∃ t : Fin cfg0.N, (cfg0.win 11).flush t = true ∧ i ∈ ((cfg0.win 11).blk t).view.set := by
  have hi0 : (i 0).val < 16384 := (i 0).isLt
  have hi1 : (i 1).val < 1024 := (i 1).isLt
  refine ⟨⟨(i 0).val / 512, by show (i 0).val / 512 < 32; omega⟩, flush0_11 _, ?_⟩
  rw [mem_blk11]
  have hf := idx_facts ⟨(i 0).val / 512, by show (i 0).val / 512 < 32; omega⟩
  intro a
  match a with
  | ⟨0, _⟩ => show win0_11.index _ (0 : Fin 2) * 512 ≤ (i 0).val ∧ (i 0).val < win0_11.index _ (0 : Fin 2) * 512 + 512; simp only [] at hf; omega
  | ⟨1, _⟩ => show win0_11.index _ (1 : Fin 2) * 1024 ≤ (i 1).val ∧ (i 1).val < win0_11.index _ (1 : Fin 2) * 1024 + 1024; simp only [] at hf; omega

/-- The value output array after the region. -/
theorem final11 (c : Dev nD) : (dat0 V c).arrAt 11 cfg0.N
    = rowsArr id (V c (Pipeline.arrRef spec0 2)) (V c (Pipeline.arrRef spec0 5)) (V c (Pipeline.arrRef spec0 8)) :=
  (dat0 V c).arrAt_eq_of_cover 11 _ (fun t _ => flushed11_eq V c t) (cover11)

end Cert.KernelIdeal.Proj

end
-- ==== Proof.AttnPayload.lean ====
/-
  The attention region's body at an entry. On one batch element the body takes a block of 512 scaled query
  rows and all 2048 key and value rows: scores are query rows against key rows; each score row is shifted by
  its maximum (a fold of max from the -inf word) and exponentiated; the exponentials are contracted against
  the value rows and the result divided by the exponentials' row sum. At entry (0, r, e) of the stored block
  that is the quotient of  sum_j exp(s r j - max_r) * value[j, e]  by  sum_j exp(s r j - max_r).
-/
import proofs.«149257_j1632087573105_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.AttnBody

open Cert.KernelIdeal Cert.KernelIdeal.Gen Idealize.ShloMosaic Idealize.ShloMosaic.ValueIdx

/-! ## The scores' product: operand indices and the entry -/

theorem s_lhs0 (i : S1x512x2048.Idx) (q : dot_S1x512x1024_S1x2048x1024_S1x512x2048_2_2_1_1_0_0.contr.Idx) : (dot_S1x512x1024_S1x2048x1024_S1x512x2048_2_2_1_1_0_0.lhsIdx i q 0).val = (i 0).val := by
  unfold DotDims.lhsIdx
  rw [dif_pos (show (0 : Fin S1x512x1024.rank) ∈ dot_S1x512x1024_S1x2048x1024_S1x512x2048_2_2_1_1_0_0.lhsBatch by decide)]
  rfl
theorem s_lhs1 (i : S1x512x2048.Idx) (q : dot_S1x512x1024_S1x2048x1024_S1x512x2048_2_2_1_1_0_0.contr.Idx) : (dot_S1x512x1024_S1x2048x1024_S1x512x2048_2_2_1_1_0_0.lhsIdx i q 1).val = (i 1).val := by
  unfold DotDims.lhsIdx
  rw [dif_neg (show ¬(1 : Fin S1x512x1024.rank) ∈ dot_S1x512x1024_S1x2048x1024_S1x512x2048_2_2_1_1_0_0.lhsBatch by decide), dif_pos (show (1 : Fin S1x512x1024.rank) ∈ dot_S1x512x1024_S1x2048x1024_S1x512x2048_2_2_1_1_0_0.lhsNonContracting by decide)]
  rfl
theorem s_lhs2 (i : S1x512x2048.Idx) (q : dot_S1x512x1024_S1x2048x1024_S1x512x2048_2_2_1_1_0_0.contr.Idx) : (dot_S1x512x1024_S1x2048x1024_S1x512x2048_2_2_1_1_0_0.lhsIdx i q 2).val = (q ⟨0, by decide⟩).val :=
  dot_S1x512x1024_S1x2048x1024_S1x512x2048_2_2_1_1_0_0.lhsIdx_val_of_single rfl i q
theorem s_rhs0 (i : S1x512x2048.Idx) (q : dot_S1x512x1024_S1x2048x1024_S1x512x2048_2_2_1_1_0_0.contr.Idx) : (dot_S1x512x1024_S1x2048x1024_S1x512x2048_2_2_1_1_0_0.rhsIdx i q 0).val = (i 0).val := by
  unfold DotDims.rhsIdx
  rw [dif_pos (show (0 : Fin S1x2048x1024.rank) ∈ dot_S1x512x1024_S1x2048x1024_S1x512x2048_2_2_1_1_0_0.rhsBatch by decide)]
  rfl
theorem s_rhs1 (i : S1x512x2048.Idx) (q : dot_S1x512x1024_S1x2048x1024_S1x512x2048_2_2_1_1_0_0.contr.Idx) : (dot_S1x512x1024_S1x2048x1024_S1x512x2048_2_2_1_1_0_0.rhsIdx i q 1).val = (i 2).val := by
  unfold DotDims.rhsIdx
  rw [dif_neg (show ¬(1 : Fin S1x2048x1024.rank) ∈ dot_S1x512x1024_S1x2048x1024_S1x512x2048_2_2_1_1_0_0.rhsBatch by decide), dif_pos (show (1 : Fin S1x2048x1024.rank) ∈ dot_S1x512x1024_S1x2048x1024_S1x512x2048_2_2_1_1_0_0.rhsNonContracting by decide)]
  rfl
theorem s_rhs2 (i : S1x512x2048.Idx) (q : dot_S1x512x1024_S1x2048x1024_S1x512x2048_2_2_1_1_0_0.contr.Idx) : (dot_S1x512x1024_S1x2048x1024_S1x512x2048_2_2_1_1_0_0.rhsIdx i q 2).val = (q ⟨0, by decide⟩).val :=
  dot_S1x512x1024_S1x2048x1024_S1x512x2048_2_2_1_1_0_0.rhsIdx_val_of_single rfl i q

/-- Score (r, j): query row r against key row j. -/
theorem score_entry (x0 : FVec Ideal S1x512x1024 .bf16) (x1 : FVec Ideal S1x2048x1024 .bf16) (r : Fin 512) (j : Fin 2048) :
    matmul dot_S1x512x1024_S1x2048x1024_S1x512x2048_2_2_1_1_0_0 none x0 x1 (constant (F := Ideal) S1x512x2048 .f32 0x00000000#32) (ix3 (0 : Fin 1) r j)
      = ∑ d : Fin 1024, x0 (ix3 (0 : Fin 1) r d) * x1 (ix3 (0 : Fin 1) j d) := by
  simp only [matmul]
  rw [Ideal.matmul_constant_zero_apply, ← Equiv.sum_comp (contrEquiv1 dot_S1x512x1024_S1x2048x1024_S1x512x2048_2_2_1_1_0_0 1024 rfl rfl).symm]
  refine Finset.sum_congr rfl fun k _ => ?_
  have hk := contrEquiv1_symm_val dot_S1x512x1024_S1x2048x1024_S1x512x2048_2_2_1_1_0_0 1024 rfl rfl k
  have el : dot_S1x512x1024_S1x2048x1024_S1x512x2048_2_2_1_1_0_0.lhsIdx (ix3 (0 : Fin 1) r j) ((contrEquiv1 dot_S1x512x1024_S1x2048x1024_S1x512x2048_2_2_1_1_0_0 1024 rfl rfl).symm k) = ix3 (0 : Fin 1) r k := funext fun a => Fin.ext (by
    match a with
    | ⟨0, _⟩ => exact s_lhs0 _ _
    | ⟨1, _⟩ => exact s_lhs1 _ _
    | ⟨2, _⟩ => exact (s_lhs2 _ _).trans hk)
  have er : dot_S1x512x1024_S1x2048x1024_S1x512x2048_2_2_1_1_0_0.rhsIdx (ix3 (0 : Fin 1) r j) ((contrEquiv1 dot_S1x512x1024_S1x2048x1024_S1x512x2048_2_2_1_1_0_0 1024 rfl rfl).symm k) = ix3 (0 : Fin 1) j k := funext fun a => Fin.ext (by
    match a with
    | ⟨0, _⟩ => exact s_rhs0 _ _
    | ⟨1, _⟩ => exact s_rhs1 _ _
    | ⟨2, _⟩ => exact (s_rhs2 _ _).trans hk)
  rw [el, er]

/-! ## The weighted values' product -/

theorem o_lhs0 (i : S1x512x1024.Idx) (q : dot_S1x512x2048_S1x2048x1024_S1x512x1024_2_1_1_2_0_0.contr.Idx) : (dot_S1x512x2048_S1x2048x1024_S1x512x1024_2_1_1_2_0_0.lhsIdx i q 0).val = (i 0).val := by
  unfold DotDims.lhsIdx
  rw [dif_pos (show (0 : Fin S1x512x2048.rank) ∈ dot_S1x512x2048_S1x2048x1024_S1x512x1024_2_1_1_2_0_0.lhsBatch by decide)]
  rfl
theorem o_lhs1 (i : S1x512x1024.Idx) (q : dot_S1x512x2048_S1x2048x1024_S1x512x1024_2_1_1_2_0_0.contr.Idx) : (dot_S1x512x2048_S1x2048x1024_S1x512x1024_2_1_1_2_0_0.lhsIdx i q 1).val = (i 1).val := by
  unfold DotDims.lhsIdx
  rw [dif_neg (show ¬(1 : Fin S1x512x2048.rank) ∈ dot_S1x512x2048_S1x2048x1024_S1x512x1024_2_1_1_2_0_0.lhsBatch by decide), dif_pos (show (1 : Fin S1x512x2048.rank) ∈ dot_S1x512x2048_S1x2048x1024_S1x512x1024_2_1_1_2_0_0.lhsNonContracting by decide)]
  rfl
theorem o_lhs2 (i : S1x512x1024.Idx) (q : dot_S1x512x2048_S1x2048x1024_S1x512x1024_2_1_1_2_0_0.contr.Idx) : (dot_S1x512x2048_S1x2048x1024_S1x512x1024_2_1_1_2_0_0.lhsIdx i q 2).val = (q ⟨0, by decide⟩).val :=
  dot_S1x512x2048_S1x2048x1024_S1x512x1024_2_1_1_2_0_0.lhsIdx_val_of_single rfl i q
theorem o_rhs0 (i : S1x512x1024.Idx) (q : dot_S1x512x2048_S1x2048x1024_S1x512x1024_2_1_1_2_0_0.contr.Idx) : (dot_S1x512x2048_S1x2048x1024_S1x512x1024_2_1_1_2_0_0.rhsIdx i q 0).val = (i 0).val := by
  unfold DotDims.rhsIdx
  rw [dif_pos (show (0 : Fin S1x2048x1024.rank) ∈ dot_S1x512x2048_S1x2048x1024_S1x512x1024_2_1_1_2_0_0.rhsBatch by decide)]
  rfl
theorem o_rhs1 (i : S1x512x1024.Idx) (q : dot_S1x512x2048_S1x2048x1024_S1x512x1024_2_1_1_2_0_0.contr.Idx) : (dot_S1x512x2048_S1x2048x1024_S1x512x1024_2_1_1_2_0_0.rhsIdx i q 1).val = (q ⟨0, by decide⟩).val :=
  dot_S1x512x2048_S1x2048x1024_S1x512x1024_2_1_1_2_0_0.rhsIdx_val_of_single rfl i q
theorem o_rhs2 (i : S1x512x1024.Idx) (q : dot_S1x512x2048_S1x2048x1024_S1x512x1024_2_1_1_2_0_0.contr.Idx) : (dot_S1x512x2048_S1x2048x1024_S1x512x1024_2_1_1_2_0_0.rhsIdx i q 2).val = (i 2).val := by
  unfold DotDims.rhsIdx
  rw [dif_neg (show ¬(2 : Fin S1x2048x1024.rank) ∈ dot_S1x512x2048_S1x2048x1024_S1x512x1024_2_1_1_2_0_0.rhsBatch by decide), dif_pos (show (2 : Fin S1x2048x1024.rank) ∈ dot_S1x512x2048_S1x2048x1024_S1x512x1024_2_1_1_2_0_0.rhsNonContracting by decide)]
  rfl

/-- Output (r, e) before normalising: the weights' row r against the values' column e. -/
theorem weighted_entry (p : FVec Ideal S1x512x2048 .bf16) (x2 : FVec Ideal S1x2048x1024 .bf16) (r : Fin 512) (e : Fin 1024) :
    matmul dot_S1x512x2048_S1x2048x1024_S1x512x1024_2_1_1_2_0_0 none p x2 (constant (F := Ideal) S1x512x1024 .f32 0x00000000#32) (ix3 (0 : Fin 1) r e)
      = ∑ j : Fin 2048, p (ix3 (0 : Fin 1) r j) * x2 (ix3 (0 : Fin 1) j e) := by
  simp only [matmul]
  rw [Ideal.matmul_constant_zero_apply, ← Equiv.sum_comp (contrEquiv1 dot_S1x512x2048_S1x2048x1024_S1x512x1024_2_1_1_2_0_0 2048 rfl rfl).symm]
  refine Finset.sum_congr rfl fun k _ => ?_
  have hk := contrEquiv1_symm_val dot_S1x512x2048_S1x2048x1024_S1x512x1024_2_1_1_2_0_0 2048 rfl rfl k
  have el : dot_S1x512x2048_S1x2048x1024_S1x512x1024_2_1_1_2_0_0.lhsIdx (ix3 (0 : Fin 1) r e) ((contrEquiv1 dot_S1x512x2048_S1x2048x1024_S1x512x1024_2_1_1_2_0_0 2048 rfl rfl).symm k) = ix3 (0 : Fin 1) r k := funext fun a => Fin.ext (by
    match a with
    | ⟨0, _⟩ => exact o_lhs0 _ _
    | ⟨1, _⟩ => exact o_lhs1 _ _
    | ⟨2, _⟩ => exact (o_lhs2 _ _).trans hk)
  have er : dot_S1x512x2048_S1x2048x1024_S1x512x1024_2_1_1_2_0_0.rhsIdx (ix3 (0 : Fin 1) r e) ((contrEquiv1 dot_S1x512x2048_S1x2048x1024_S1x512x1024_2_1_1_2_0_0 2048 rfl rfl).symm k) = ix3 (0 : Fin 1) k e := funext fun a => Fin.ext (by
    match a with
    | ⟨0, _⟩ => exact o_rhs0 _ _
    | ⟨1, _⟩ => exact (o_rhs1 _ _).trans hk
    | ⟨2, _⟩ => exact o_rhs2 _ _)
  rw [el, er]

/-! ## Row reductions and the keepdims layouts -/

/-- The index a reduction over the last axis inserts. -/
theorem lift_eq (h : S1x512x2048.Reduces [2] S1x512) (r : Fin 512) (k : Fin 2048) :
    h.lift (ix2 (0 : Fin 1) r) k = ix3 (0 : Fin 1) r k :=
  funext fun a => Fin.ext (by
    match a with
    | ⟨0, _⟩ => rfl
    | ⟨1, _⟩ => rfl
    | ⟨2, _⟩ => rfl)

/-- A row's maximum: the fold of max from the accumulator word over the row. -/
theorem rowmax_entry (s : FVec Ideal S1x512x2048 .f32) (acc : BitVec 32) (h : S1x512x2048.Reduces [2] S1x512)
    (hφ : FKind.Formats .f32) (hacc : acc = FKind.maximumf.neutral .f32 hφ) (r : Fin 512) :
    multiReduction .maximumf [2] S1x512 s acc h hφ hacc (ix2 (0 : Fin 1) r)
      = (Finset.univ : Finset (Fin 2048)).fold max (Ideal.ofBits .f32 acc) (fun j => s (ix3 (0 : Fin 1) r j)) := by
  refine (Ideal.multiReduction_maximumf_single s acc h hφ hacc (ix2 (0 : Fin 1) r)).trans ?_
  refine congrArg (fun f : Fin 2048 → EReal => (Finset.univ : Finset (Fin 2048)).fold max (Ideal.ofBits .f32 acc) f) (funext fun j => ?_)
  exact congrArg s (lift_eq h r j)

/-- A row's sum. -/
theorem rowsum_entry (s : FVec Ideal S1x512x2048 .f32) (acc : BitVec 32) (h : S1x512x2048.Reduces [2] S1x512)
    (hφ : FKind.Formats .f32) (hacc : acc = FKind.add.neutral .f32 hφ) (r : Fin 512) :
    multiReduction .add [2] S1x512 s acc h hφ hacc (ix2 (0 : Fin 1) r) = ∑ j : Fin 2048, s (ix3 (0 : Fin 1) r j) := by
  refine (Ideal.multiReduction_add_single s acc h hφ hacc (ix2 (0 : Fin 1) r)).trans ?_
  refine Finset.sum_congr rfl fun j _ => ?_
  exact congrArg s (lift_eq h r j)

/-- A per-row value cast to a column: entry (0, r, 0) is the row's value. -/
theorem column_entry (v : FVec Ideal S1x512 .f32) (h : S1x512.ShapeCasts S1x512x1) (r : Fin 512) :
    shapeCast S1x512x1 v h (ix3 (0 : Fin 1) r (0 : Fin 1)) = v (ix2 (0 : Fin 1) r) := by
  refine shapeCast_apply v h _ (ix2 (0 : Fin 1) r) ?_
  rw [Shape.rowMajor_val_two, Shape.rowMajor_val_three]
  show 0 * 512 + r.val = (0 * 512 + r.val) * 1 + 0
  omega

/-- A column broadcast along 2048 places: entry (0, r, j) is the column's entry r. -/
theorem spread_scores (v : FVec Ideal S1x512x1 .f32) (h : S1x512x1.Broadcasts S1x512x2048) (r : Fin 512) (j : Fin 2048) :
    broadcastTo S1x512x2048 v h (ix3 (0 : Fin 1) r j) = v (ix3 (0 : Fin 1) r (0 : Fin 1)) := by
  refine broadcastTo_apply v h _ (ix3 (0 : Fin 1) r (0 : Fin 1)) (fun a => ?_)
  match a with
  | ⟨0, _⟩ => show (0 : Nat) = if (1 : Nat) = 1 then 0 else _; rw [if_pos rfl]
  | ⟨1, _⟩ => show r.val = if (512 : Nat) = 1 then 0 else r.val; rw [if_neg (by decide)]
  | ⟨2, _⟩ => show (0 : Nat) = if (1 : Nat) = 1 then 0 else _; rw [if_pos rfl]

/-- A column broadcast along 1024 places. -/
theorem spread_out (v : FVec Ideal S1x512x1 .f32) (h : S1x512x1.Broadcasts S1x512x1024) (r : Fin 512) (e : Fin 1024) :
    broadcastTo S1x512x1024 v h (ix3 (0 : Fin 1) r e) = v (ix3 (0 : Fin 1) r (0 : Fin 1)) := by
  refine broadcastTo_apply v h _ (ix3 (0 : Fin 1) r (0 : Fin 1)) (fun a => ?_)
  match a with
  | ⟨0, _⟩ => show (0 : Nat) = if (1 : Nat) = 1 then 0 else _; rw [if_pos rfl]
  | ⟨1, _⟩ => show r.val = if (512 : Nat) = 1 then 0 else r.val; rw [if_neg (by decide)]
  | ⟨2, _⟩ => show (0 : Nat) = if (1 : Nat) = 1 then 0 else _; rw [if_pos rfl]

/-! ## The stored block -/

/-- Score (r, j) of a block of query rows against the key rows. -/
def sc (x0 : FVec Ideal S1x512x1024 .bf16) (x1 : FVec Ideal S1x2048x1024 .bf16) (r : Fin 512) (j : Fin 2048) : EReal :=
  ∑ d : Fin 1024, x0 (ix3 (0 : Fin 1) r d) * x1 (ix3 (0 : Fin 1) j d)
/-- The shifted exponential at (r, j). -/
def ex (x0 : FVec Ideal S1x512x1024 .bf16) (x1 : FVec Ideal S1x2048x1024 .bf16) (r : Fin 512) (j : Fin 2048) : EReal :=
  Ideal.exp (sc x0 x1 r j - (Finset.univ : Finset (Fin 2048)).fold max (Ideal.ofBits .f32 0xFF800000#32) (fun j' => sc x0 x1 r j'))

/-- The attention body's stored block at entry (0, r, e). -/
theorem attn_entry (x0 : FVec Ideal S1x512x1024 .bf16) (x1 x2 : FVec Ideal S1x2048x1024 .bf16) (r : Fin 512) (e : Fin 1024) :
    k1_pay1 (F := Ideal) x0 x1 x2 (ix3 (0 : Fin 1) r e)
      = Ideal.div (∑ j : Fin 2048, ex x0 x1 r j * x2 (ix3 (0 : Fin 1) j e)) (∑ j : Fin 2048, ex x0 x1 r j) := by
  unfold k1_pay1
  simp only [shapeCast_self]
  have hex : ∀ j : Fin 2048,
      (exp (subf (matmul dot_S1x512x1024_S1x2048x1024_S1x512x2048_2_2_1_1_0_0 none x0 x1 (constant (F := Ideal) S1x512x2048 .f32 0x00000000#32))
        (broadcastTo S1x512x2048 (shapeCast S1x512x1 (multiReduction .maximumf [2] S1x512 (matmul dot_S1x512x1024_S1x2048x1024_S1x512x2048_2_2_1_1_0_0 none x0 x1 (constant (F := Ideal) S1x512x2048 .f32 0x00000000#32)) 0xFF800000#32 reduces_S1x512x2048_S1x512 (.inl rfl) rfl) shapeCasts_S1x512_S1x512x1) broadcasts_S1x512x1_S1x512x2048)) : FVec Ideal S1x512x2048 .f32) (ix3 (0 : Fin 1) r j)
        = ex x0 x1 r j := by
    intro j
    show Ideal.exp (_ - _) = Ideal.exp (_ - _)
    refine congrArg Ideal.exp (congrArg₂ (· - ·) (score_entry x0 x1 r j) ?_)
    refine (spread_scores _ _ r j).trans ((column_entry _ _ r).trans ((rowmax_entry _ _ _ _ _ r).trans ?_))
    exact congrArg (fun f : Fin 2048 → EReal => (Finset.univ : Finset (Fin 2048)).fold max (Ideal.ofBits .f32 0xFF800000#32) f)
      (funext fun j' => score_entry x0 x1 r j')
  show Ideal.div _ _ = Ideal.div _ _
  refine congrArg₂ Ideal.div ?_ ?_
  · refine (weighted_entry _ x2 r e).trans ?_
    refine Finset.sum_congr rfl fun j _ => ?_
    exact congrArg (· * x2 (ix3 (0 : Fin 1) j e)) (hex j)
  · refine (spread_out _ _ r e).trans ((column_entry _ _ r).trans ((rowsum_entry _ _ _ _ _ r).trans ?_))
    exact Finset.sum_congr rfl fun j _ => hex j

end Cert.KernelIdeal.AttnBody

end
-- ==== Proof.AttnRegion.lean ====
/-
  The attention region as a whole array. The region walks 8 x 4 grid points; point t serves batch element t / 4
  and query rows 512·(t % 4) … 512·(t % 4) + 511: it reads that block of the scaled queries and ALL key and
  value rows of the batch element, and writes that block of the output. Every output row is written by exactly
  one point, so after the region the output array is, entry by entry, the attention of the three arrays the
  region found in its input buffers — whatever the output array held before. Stated for any contents `V` of
  the buffers at the region's entry.
-/
import proofs.«149257_j1632087573105_2_alg».proof.Proof.Gen.KernelIdeal.Frame
import proofs.«149257_j1632087573105_2_alg».proof.Proof.AttnPayload
import proofs.«149257_j1632087573105_2_alg».proof.Proof.AttnSpec
import Idealize.ShloMosaic.Lib.Pipeline.Value

set_option maxRecDepth 16384

noncomputable section

namespace Cert.KernelIdeal.AttnBody

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zero_off3 : (![0, 0, 0] : Fin 3 → Nat) = fun _ => 0 := funext fun a => by fin_cases a <;> rfl

/-- The attention of three arrays (scaled queries, keys, values), as an array over the batch shape. -/
def attnArr (q k v : S8x2048x1024.Idx → EReal) : S8x2048x1024.Idx → EReal :=
  fun i => Cert.Attn.kerOut (Cert.Attn.un3 q) (Cert.Attn.un3 k) (Cert.Attn.un3 v)
    ⟨(i 0).val, (i 0).isLt⟩ ⟨(i 1).val, (i 1).isLt⟩ ⟨(i 2).val, (i 2).isLt⟩

/-- The index maps over the grid: the query and output windows sit at block (t / 4, t % 4, 0), the key and value
    windows at block (t / 4, 0, 0). -/
theorem idx_facts1 : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = t.val % 4 ∧ win1_3.index t (2 : Fin 3) = 0 :=
  (by decide +kernel : ∀ t : Fin grid1.N, _)

theorem point_lt1 (t : Fin cfg1.N) : t.val < 32 := t.isLt

/-- The query window's block at point t, entry (0, r, d), is row 512·(t % 4) + r of batch element t / 4. -/
theorem q_blk (c : Dev nD) (t : Fin cfg1.N) (r : Fin 512) (d : Fin 1024) :
    iblk1 V c 0 t (ix3 (0 : Fin 1) r d) = V c (Pipeline.arrRef spec1 0)
      (ix3 (⟨t.val / 4, by have := point_lt1 t; omega⟩ : Fin 8) (⟨t.val % 4 * 512 + r.val, by have := r.isLt; omega⟩ : Fin 2048) d) := by
  show V c (Pipeline.arrRef spec1 0) (((cfg1.win 0).blk t).view.emb (ix3 (0 : Fin 1) r d)) = _
  refine congrArg (V c (Pipeline.arrRef spec1 0)) (funext fun a => Fin.ext ?_)
  have hf := idx_facts1 t
  match a with
  | ⟨0, _⟩ => show win1_0.index t (0 : Fin 3) * 1 + 1 * 0 = t.val / 4; omega
  | ⟨1, _⟩ => show win1_0.index t (1 : Fin 3) * 512 + 1 * r.val = t.val % 4 * 512 + r.val; omega
  | ⟨2, _⟩ => show win1_0.index t (2 : Fin 3) * 1024 + 1 * d.val = d.val; omega

/-- The key window's block at point t is the whole batch element t / 4. -/
theorem k_blk (c : Dev nD) (t : Fin cfg1.N) (j : Fin 2048) (d : Fin 1024) :
    iblk1 V c 1 t (ix3 (0 : Fin 1) j d) = V c (Pipeline.arrRef spec1 1)
      (ix3 (⟨t.val / 4, by have := point_lt1 t; omega⟩ : Fin 8) j d) := by
  show V c (Pipeline.arrRef spec1 1) (((cfg1.win 1).blk t).view.emb (ix3 (0 : Fin 1) j d)) = _
  refine congrArg (V c (Pipeline.arrRef spec1 1)) (funext fun a => Fin.ext ?_)
  have hf := idx_facts1 t
  match a with
  | ⟨0, _⟩ => show win1_1.index t (0 : Fin 3) * 1 + 1 * 0 = t.val / 4; omega
  | ⟨1, _⟩ => show win1_1.index t (1 : Fin 3) * 2048 + 1 * j.val = j.val; omega
  | ⟨2, _⟩ => show win1_1.index t (2 : Fin 3) * 1024 + 1 * d.val = d.val; omega

/-- The value window's block at point t is the whole batch element t / 4. -/
theorem v_blk (c : Dev nD) (t : Fin cfg1.N) (j : Fin 2048) (e : Fin 1024) :
    iblk1 V c 2 t (ix3 (0 : Fin 1) j e) = V c (Pipeline.arrRef spec1 2)
      (ix3 (⟨t.val / 4, by have := point_lt1 t; omega⟩ : Fin 8) j e) := by
  show V c (Pipeline.arrRef spec1 2) (((cfg1.win 2).blk t).view.emb (ix3 (0 : Fin 1) j e)) = _
  refine congrArg (V c (Pipeline.arrRef spec1 2)) (funext fun a => Fin.ext ?_)
  have hf := idx_facts1 t
  match a with
  | ⟨0, _⟩ => show win1_2.index t (0 : Fin 3) * 1 + 1 * 0 = t.val / 4; omega
  | ⟨1, _⟩ => show win1_2.index t (1 : Fin 3) * 2048 + 1 * j.val = j.val; omega
  | ⟨2, _⟩ => show win1_2.index t (2 : Fin 3) * 1024 + 1 * e.val = e.val; omega

/-- What point t writes back is block t of the attention of the three input arrays. -/
theorem flushed3_eq (c : Dev nD) (t : Fin cfg1.N) :
    (dat1 V c).flushed 3 t = ((cfg1.win 3).blk t).view.read (Elt Ideal)
      (attnArr (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero zero_off3]
  simp only [View.ld_unit_zero (S := S1x512x1024) zero_off3, View.ld_unit_zero (S := S1x2048x1024) zero_off3]
  funext j
  obtain ⟨z, r, e, rfl⟩ : ∃ (z : Fin 1) (r : Fin 512) (e : Fin 1024), j = ix3 z r e := ⟨j 0, j 1, j 2, eq_ix3 j⟩
  obtain rfl : z = 0 := Subsingleton.elim _ _
  refine (attn_entry (iblk1 V c 0 t) (iblk1 V c 1 t) (iblk1 V c 2 t) r e).trans ?_
  have hf := idx_facts1 t
  have he : ((cfg1.win 3).blk t).view.emb (ix3 (0 : Fin 1) r e)
      = ix3 (⟨t.val / 4, by have := point_lt1 t; omega⟩ : Fin 8) (⟨t.val % 4 * 512 + r.val, by have := r.isLt; omega⟩ : Fin 2048) e := by
    funext a; apply Fin.ext
    match a with
    | ⟨0, _⟩ => show win1_3.index t (0 : Fin 3) * 1 + 1 * 0 = t.val / 4; omega
    | ⟨1, _⟩ => show win1_3.index t (1 : Fin 3) * 512 + 1 * r.val = t.val % 4 * 512 + r.val; omega
    | ⟨2, _⟩ => show win1_3.index t (2 : Fin 3) * 1024 + 1 * e.val = e.val; omega
  show _ = attnArr _ _ _ (((cfg1.win 3).blk t).view.emb (ix3 (0 : Fin 1) r e))
  rw [he]
  unfold attnArr Cert.Attn.kerOut Cert.Attn.kerSum Cert.Attn.kerExp Cert.Attn.kerMax Cert.Attn.kerScore Cert.Attn.un3 ex sc
  simp only [q_blk V c t r, k_blk V c t, v_blk V c t]

/-- An index is in point t's block of the output iff each coordinate is in the block's range. -/
theorem mem_blk3 (t : Fin cfg1.N) (i : S8x2048x1024.Idx) :
    i ∈ ((cfg1.win 3).blk t).view.set ↔ ∀ a : Fin 3, win1_3.index t a * S1x512x1024.size a ≤ (i a).val ∧ (i a).val < win1_3.index t a * S1x512x1024.size a + S1x512x1024.size a := by
  show i ∈ ((View.whole (Pipeline.arrRef spec1 3)).slice (win1_3.rect t)).set ↔ _
  rw [View.set_slice_whole, Rect.mem_set_unit]
  exact Iff.rfl

/-- Every output row is in the block of the point its batch element and its row number divided by 512 name. -/
theorem cover3 (i : S8x2048x1024.Idx) : ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 1024 := (i 2).isLt
  have hlt : (i 0).val * 4 + (i 1).val / 512 < 32 := by omega
  refine ⟨⟨(i 0).val * 4 + (i 1).val / 512, hlt⟩, flush1_3 _, ?_⟩
  rw [mem_blk3]
  have hf := idx_facts1 ⟨(i 0).val * 4 + (i 1).val / 512, hlt⟩
  simp only [] at hf
  intro a
  match a with
  | ⟨0, _⟩ => show win1_3.index _ (0 : Fin 3) * 1 ≤ (i 0).val ∧ (i 0).val < win1_3.index _ (0 : Fin 3) * 1 + 1; omega
  | ⟨1, _⟩ => show win1_3.index _ (1 : Fin 3) * 512 ≤ (i 1).val ∧ (i 1).val < win1_3.index _ (1 : Fin 3) * 512 + 512; omega
  | ⟨2, _⟩ => show win1_3.index _ (2 : Fin 3) * 1024 ≤ (i 2).val ∧ (i 2).val < win1_3.index _ (2 : Fin 3) * 1024 + 1024; omega

/-- The output array after the region: the attention of the three arrays in its input buffers. -/
theorem final3 (c : Dev nD) : (dat1 V c).arrAt 3 cfg1.N
    = attnArr (V c (Pipeline.arrRef spec1 0)) (V c (Pipeline.arrRef spec1 1)) (V c (Pipeline.arrRef spec1 2)) :=
  (dat1 V c).arrAt_eq_of_cover 3 _ (fun t _ => flushed3_eq V c t) (cover3)

end Cert.KernelIdeal.AttnBody

end
-- ==== Proof.KernelValue.lean ====
/-
  The kernel program's result array as one function of its arguments. Reading the run's last boundary backwards:
  the result is the attention region's output, the attention of the three arrays in its input buffers; those are
  the projection region's three outputs reshaped from 16384 rows back to 8 batches of 2048 rows; each projection
  output is the flattened input against the transposed weights plus the bias row (the query one times the scale
  word); and the flattened inputs, transposed weights and bias rows are layout changes of the arguments. Entry by
  entry this is the kernel's spelling of attention behind three linear layers.
-/
import proofs.«149257_j1632087573105_2_alg».proof.Proof.Gen.KernelIdeal.Frame
import proofs.«149257_j1632087573105_2_alg».proof.Proof.ProjRegion
import proofs.«149257_j1632087573105_2_alg».proof.Proof.AttnRegion
import proofs.«149257_j1632087573105_2_alg».proof.Proof.AttnSpec
import Idealize.ShloMosaic.Lib.Pipeline.Value
import Idealize.ShloMosaic.Lib.StableHlo.Run
import Idealize.ShloMosaic.Lib.ValueIdx

set_option maxRecDepth 16384

noncomputable section

namespace Cert.KernelIdeal.Glue

open Cert.KernelIdeal Cert.KernelIdeal.Gen Idealize.ShloMosaic Idealize.ShloMosaic.TcCoe Idealize.ShloMosaic.ValueIdx
open Idealize.SL.Sem Idealize.ShloMosaic.StableHlo
open Cert.Attn

/-! ## The layout changes at an entry -/

/-- Flattening batches of rows: row 2048·n + s of the flat array is row s of batch n. -/
theorem flat_entry (x : S8x2048x1024.Idx → EReal) (h : S8x2048x1024.ShapeCasts S16384x1024) (n : Fin 8) (s : Fin 2048) (k : Fin 1024) :
    shapeCast S16384x1024 x h (ix2 (⟨n.val * 2048 + s.val, by have := n.isLt; have := s.isLt; omega⟩ : Fin 16384) k) = x (ix3 n s k) := by
  refine shapeCast_apply x h _ (ix3 n s k) ?_
  rw [Shape.rowMajor_val_three, Shape.rowMajor_val_two]
  rfl

/-- Splitting the flat rows back into batches. -/
theorem unflat_entry (y : S16384x1024.Idx → EReal) (h : S16384x1024.ShapeCasts S8x2048x1024) (n : Fin 8) (s : Fin 2048) (f : Fin 1024) :
    shapeCast S8x2048x1024 y h (ix3 n s f) = y (ix2 (⟨n.val * 2048 + s.val, by have := n.isLt; have := s.isLt; omega⟩ : Fin 16384) f) := by
  refine shapeCast_apply y h _ (ix2 (⟨n.val * 2048 + s.val, by have := n.isLt; have := s.isLt; omega⟩ : Fin 16384) f) ?_
  rw [Shape.rowMajor_val_three, Shape.rowMajor_val_two]
  rfl

/-- The transposed weights, entry (k, f), are the weights' entry (f, k); the format change is the identity. -/
theorem transposed_entry (w : FVec Ideal S1024x1024 .f32) (h : S1024x1024.Transposes [1, 0] S1024x1024) (k f : Fin 1024) :
    (truncf .bf16 (transpose S1024x1024 [1, 0] w h) bitsLt_bf16_f32 : FVec Ideal S1024x1024 .bf16) (ix2 k f) = w (ix2 f k) := by
  show transpose S1024x1024 [1, 0] w h (ix2 k f) = w (ix2 f k)
  refine transpose_apply [1, 0] w h (ix2 k f) (ix2 f k) (fun b => ?_)
  match b with
  | ⟨0, _⟩ => rfl
  | ⟨1, _⟩ => rfl

/-- The bias as a one-row matrix: entry (0, f) is the bias entry f. -/
theorem bias_row_entry (b : S1024.Idx → EReal) (h : S1024.ShapeCasts S1x1024) (f : Fin 1024) :
    shapeCast S1x1024 b h (ix2 (0 : Fin 1) f) = b (ix1 f) := by
  refine shapeCast_apply b h _ (ix1 f) ?_
  rw [Shape.rowMajor_val_one, Shape.rowMajor_val_two]
  show f.val = 0 * 1024 + f.val
  omega

/-- A projection of the flattened input against the transposed weights and the bias row, at row 2048·n + s, is
    the linear layer at (n, s). -/
theorem rows_flat (x : FVec Ideal S8x2048x1024 .f32) (w : FVec Ideal S1024x1024 .f32) (b : FVec Ideal S1024 .f32)
    (hx : S8x2048x1024.ShapeCasts S16384x1024) (hw : S1024x1024.Transposes [1, 0] S1024x1024) (hb : S1024.ShapeCasts S1x1024)
    (n : Fin 8) (s : Fin 2048) (f : Fin 1024) :
    Proj.rows (shapeCast S16384x1024 x hx) (truncf .bf16 (transpose S1024x1024 [1, 0] w hw) bitsLt_bf16_f32 : FVec Ideal S1024x1024 .bf16)
        (shapeCast S1x1024 b hb) (⟨n.val * 2048 + s.val, by have := n.isLt; have := s.isLt; omega⟩ : Fin 16384) f
      = proj (un3 x) (un2 w) (un1 b) n s f := by
  unfold Proj.rows proj un3 un2 un1
  refine congrArg₂ (· + ·) (Finset.sum_congr rfl fun k _ => ?_) (bias_row_entry b hb f)
  exact congrArg₂ (· * ·) (flat_entry x hx n s k) (transposed_entry w hw k f)

variable (m : (ℓ : Loc nD τ sig) → Buf (Elt Ideal) ℓ) (ρ : Dev nD → PrngReg)

/-! ## The buffers at the projection region's entry -/

theorem in_main_v0 (c : Dev nD) : (V1 m ρ c (Pipeline.arrRef spec0 0) : S16384x1024.Idx → EReal)
    = shapeCast S16384x1024 (m ((c : Thread nD τ).loc main_arg0)) shapeCasts_S8x2048x1024_S16384x1024 := by
  show (V1 m ρ c main_v0 : S16384x1024.Idx → EReal) = _
  dsimp only [V1, W1, W0, hostOps0]; after_results; rfl
theorem in_main_v4 (c : Dev nD) : (V1 m ρ c (Pipeline.arrRef spec0 3) : S1024x1024.Idx → EReal)
    = (truncf .bf16 (transpose S1024x1024 [1, 0] (m ((c : Thread nD τ).loc main_arg3)) transposes_S1024x1024_S1024x1024_1_0) bitsLt_bf16_f32 : FVec Ideal S1024x1024 .bf16) := by
  show (V1 m ρ c main_v4 : S1024x1024.Idx → EReal) = _
  dsimp only [V1, W1, W0, hostOps0]; after_results
theorem in_main_v9 (c : Dev nD) : (V1 m ρ c (Pipeline.arrRef spec0 6) : S1x1024.Idx → EReal)
    = shapeCast S1x1024 (m ((c : Thread nD τ).loc main_arg4)) shapeCasts_S1024_S1x1024 := by
  show (V1 m ρ c main_v9 : S1x1024.Idx → EReal) = _
  dsimp only [V1, W1, W0, hostOps0]; after_results; rfl

theorem in_main_v1 (c : Dev nD) : (V1 m ρ c (Pipeline.arrRef spec0 1) : S16384x1024.Idx → EReal)
    = shapeCast S16384x1024 (m ((c : Thread nD τ).loc main_arg1)) shapeCasts_S8x2048x1024_S16384x1024 := by
  show (V1 m ρ c main_v1 : S16384x1024.Idx → EReal) = _
  dsimp only [V1, W1, W0, hostOps0]; after_results; rfl
theorem in_main_v6 (c : Dev nD) : (V1 m ρ c (Pipeline.arrRef spec0 4) : S1024x1024.Idx → EReal)
    = (truncf .bf16 (transpose S1024x1024 [1, 0] (m ((c : Thread nD τ).loc main_arg5)) transposes_S1024x1024_S1024x1024_1_0) bitsLt_bf16_f32 : FVec Ideal S1024x1024 .bf16) := by
  show (V1 m ρ c main_v6 : S1024x1024.Idx → EReal) = _
  dsimp only [V1, W1, W0, hostOps0]; after_results
theorem in_main_v10 (c : Dev nD) : (V1 m ρ c (Pipeline.arrRef spec0 7) : S1x1024.Idx → EReal)
    = shapeCast S1x1024 (m ((c : Thread nD τ).loc main_arg6)) shapeCasts_S1024_S1x1024 := by
  show (V1 m ρ c main_v10 : S1x1024.Idx → EReal) = _
  dsimp only [V1, W1, W0, hostOps0]; after_results; rfl

theorem in_main_v2 (c : Dev nD) : (V1 m ρ c (Pipeline.arrRef spec0 2) : S16384x1024.Idx → EReal)
    = shapeCast S16384x1024 (m ((c : Thread nD τ).loc main_arg2)) shapeCasts_S8x2048x1024_S16384x1024 := by
  show (V1 m ρ c main_v2 : S16384x1024.Idx → EReal) = _
  dsimp only [V1, W1, W0, hostOps0]; after_results; rfl
theorem in_main_v8 (c : Dev nD) : (V1 m ρ c (Pipeline.arrRef spec0 5) : S1024x1024.Idx → EReal)
    = (truncf .bf16 (transpose S1024x1024 [1, 0] (m ((c : Thread nD τ).loc main_arg7)) transposes_S1024x1024_S1024x1024_1_0) bitsLt_bf16_f32 : FVec Ideal S1024x1024 .bf16) := by
  show (V1 m ρ c main_v8 : S1024x1024.Idx → EReal) = _
  dsimp only [V1, W1, W0, hostOps0]; after_results
theorem in_main_v11 (c : Dev nD) : (V1 m ρ c (Pipeline.arrRef spec0 8) : S1x1024.Idx → EReal)
    = shapeCast S1x1024 (m ((c : Thread nD τ).loc main_arg8)) shapeCasts_S1024_S1x1024 := by
  show (V1 m ρ c main_v11 : S1x1024.Idx → EReal) = _
  dsimp only [V1, W1, W0, hostOps0]; after_results; rfl

/-! ## The buffers at the attention region's entry -/

/-- The projection region leaves its query output at the whole-array function of its inputs. -/
theorem left_main_v12_0 (c : Dev nD) : (W2 m ρ c (Proc.devRef .tc main_v12_0) : S16384x1024.Idx → EReal)
    = Proj.rowsArr (· * wScale) (V1 m ρ c (Pipeline.arrRef spec0 0)) (V1 m ρ c (Pipeline.arrRef spec0 3)) (V1 m ρ c (Pipeline.arrRef spec0 6)) :=
  (W2_arr m ρ c 9).trans (Proj.final9 (V1 m ρ) c)

theorem in_main_v13 (c : Dev nD) : (V3 m ρ c (Pipeline.arrRef spec1 0) : S8x2048x1024.Idx → EReal)
    = shapeCast S8x2048x1024 (W2 m ρ c (Proc.devRef .tc main_v12_0)) shapeCasts_S16384x1024_S8x2048x1024 := by
  show (V3 m ρ c main_v13 : S8x2048x1024.Idx → EReal) = _
  dsimp only [V3, W3, hostOps1]; after_results; rfl

/-- The attention region's query input, entry (n, s, f), is the linear layer of the arguments times the scale. -/
theorem entry_main_v13 (c : Dev nD) (n : Fin 8) (s : Fin 2048) (f : Fin 1024) :
    (V3 m ρ c (Pipeline.arrRef spec1 0) : S8x2048x1024.Idx → EReal) (ix3 n s f)
      = kerQuery (proj (un3 (m ((c : Thread nD τ).loc main_arg0))) (un2 (m ((c : Thread nD τ).loc main_arg3))) (un1 (m ((c : Thread nD τ).loc main_arg4)))) n s f := by
  refine (congrFun (in_main_v13 m ρ c) (ix3 n s f)).trans ?_
  refine (unflat_entry _ shapeCasts_S16384x1024_S8x2048x1024 n s f).trans ?_
  refine (congrFun (left_main_v12_0 m ρ c) _).trans ?_
  show (· * wScale) (Proj.rows (V1 m ρ c (Pipeline.arrRef spec0 0)) (V1 m ρ c (Pipeline.arrRef spec0 3)) (V1 m ρ c (Pipeline.arrRef spec0 6))
      (⟨n.val * 2048 + s.val, by have := n.isLt; have := s.isLt; omega⟩ : Fin 16384) f) = _
  rw [in_main_v0 m ρ c, in_main_v4 m ρ c, in_main_v9 m ρ c]
  exact congrArg (· * wScale) (rows_flat (m ((c : Thread nD τ).loc main_arg0)) (m ((c : Thread nD τ).loc main_arg3)) (m ((c : Thread nD τ).loc main_arg4)) shapeCasts_S8x2048x1024_S16384x1024 transposes_S1024x1024_S1024x1024_1_0 shapeCasts_S1024_S1x1024 n s f)

/-- The projection region leaves its key output at the whole-array function of its inputs. -/
theorem left_main_v12_1 (c : Dev nD) : (W2 m ρ c (Proc.devRef .tc main_v12_1) : S16384x1024.Idx → EReal)
    = Proj.rowsArr id (V1 m ρ c (Pipeline.arrRef spec0 1)) (V1 m ρ c (Pipeline.arrRef spec0 4)) (V1 m ρ c (Pipeline.arrRef spec0 7)) :=
  (W2_arr m ρ c 10).trans (Proj.final10 (V1 m ρ) c)

theorem in_main_v14 (c : Dev nD) : (V3 m ρ c (Pipeline.arrRef spec1 1) : S8x2048x1024.Idx → EReal)
    = shapeCast S8x2048x1024 (W2 m ρ c (Proc.devRef .tc main_v12_1)) shapeCasts_S16384x1024_S8x2048x1024 := by
  show (V3 m ρ c main_v14 : S8x2048x1024.Idx → EReal) = _
  dsimp only [V3, W3, hostOps1]; after_results; rfl

/-- The attention region's key input, entry (n, s, f), is the linear layer of the arguments. -/
theorem entry_main_v14 (c : Dev nD) (n : Fin 8) (s : Fin 2048) (f : Fin 1024) :
    (V3 m ρ c (Pipeline.arrRef spec1 1) : S8x2048x1024.Idx → EReal) (ix3 n s f)
      = proj (un3 (m ((c : Thread nD τ).loc main_arg1))) (un2 (m ((c : Thread nD τ).loc main_arg5))) (un1 (m ((c : Thread nD τ).loc main_arg6))) n s f := by
  refine (congrFun (in_main_v14 m ρ c) (ix3 n s f)).trans ?_
  refine (unflat_entry _ shapeCasts_S16384x1024_S8x2048x1024 n s f).trans ?_
  refine (congrFun (left_main_v12_1 m ρ c) _).trans ?_
  show id (Proj.rows (V1 m ρ c (Pipeline.arrRef spec0 1)) (V1 m ρ c (Pipeline.arrRef spec0 4)) (V1 m ρ c (Pipeline.arrRef spec0 7))
      (⟨n.val * 2048 + s.val, by have := n.isLt; have := s.isLt; omega⟩ : Fin 16384) f) = _
  rw [in_main_v1 m ρ c, in_main_v6 m ρ c, in_main_v10 m ρ c]
  exact congrArg id (rows_flat (m ((c : Thread nD τ).loc main_arg1)) (m ((c : Thread nD τ).loc main_arg5)) (m ((c : Thread nD τ).loc main_arg6)) shapeCasts_S8x2048x1024_S16384x1024 transposes_S1024x1024_S1024x1024_1_0 shapeCasts_S1024_S1x1024 n s f)

/-- The projection region leaves its value output at the whole-array function of its inputs. -/
theorem left_main_v12_2 (c : Dev nD) : (W2 m ρ c (Proc.devRef .tc main_v12_2) : S16384x1024.Idx → EReal)
    = Proj.rowsArr id (V1 m ρ c (Pipeline.arrRef spec0 2)) (V1 m ρ c (Pipeline.arrRef spec0 5)) (V1 m ρ c (Pipeline.arrRef spec0 8)) :=
  (W2_arr m ρ c 11).trans (Proj.final11 (V1 m ρ) c)

theorem in_main_v15 (c : Dev nD) : (V3 m ρ c (Pipeline.arrRef spec1 2) : S8x2048x1024.Idx → EReal)
    = shapeCast S8x2048x1024 (W2 m ρ c (Proc.devRef .tc main_v12_2)) shapeCasts_S16384x1024_S8x2048x1024 := by
  show (V3 m ρ c main_v15 : S8x2048x1024.Idx → EReal) = _
  dsimp only [V3, W3, hostOps1]; after_results; rfl

/-- The attention region's value input, entry (n, s, f), is the linear layer of the arguments. -/
theorem entry_main_v15 (c : Dev nD) (n : Fin 8) (s : Fin 2048) (f : Fin 1024) :
    (V3 m ρ c (Pipeline.arrRef spec1 2) : S8x2048x1024.Idx → EReal) (ix3 n s f)
      = proj (un3 (m ((c : Thread nD τ).loc main_arg2))) (un2 (m ((c : Thread nD τ).loc main_arg7))) (un1 (m ((c : Thread nD τ).loc main_arg8))) n s f := by
  refine (congrFun (in_main_v15 m ρ c) (ix3 n s f)).trans ?_
  refine (unflat_entry _ shapeCasts_S16384x1024_S8x2048x1024 n s f).trans ?_
  refine (congrFun (left_main_v12_2 m ρ c) _).trans ?_
  show id (Proj.rows (V1 m ρ c (Pipeline.arrRef spec0 2)) (V1 m ρ c (Pipeline.arrRef spec0 5)) (V1 m ρ c (Pipeline.arrRef spec0 8))
      (⟨n.val * 2048 + s.val, by have := n.isLt; have := s.isLt; omega⟩ : Fin 16384) f) = _
  rw [in_main_v2 m ρ c, in_main_v8 m ρ c, in_main_v11 m ρ c]
  exact congrArg id (rows_flat (m ((c : Thread nD τ).loc main_arg2)) (m ((c : Thread nD τ).loc main_arg7)) (m ((c : Thread nD τ).loc main_arg8)) shapeCasts_S8x2048x1024_S16384x1024 transposes_S1024x1024_S1024x1024_1_0 shapeCasts_S1024_S1x1024 n s f)

/-! ## The result array -/

/-- The kernel program's result array, entry by entry, is the kernel's spelling of attention behind the three linear
    layers, of the argument arrays as launched. -/
theorem result_eq (c : Dev nD) : (W4 m ρ c (Proc.devRef .tc main_v16) : S8x2048x1024.Idx → EReal)
    = fun i => kerForm (un3 (m ((c : Thread nD τ).loc main_arg0))) (un3 (m ((c : Thread nD τ).loc main_arg1))) (un3 (m ((c : Thread nD τ).loc main_arg2)))
        (un2 (m ((c : Thread nD τ).loc main_arg3))) (un1 (m ((c : Thread nD τ).loc main_arg4))) (un2 (m ((c : Thread nD τ).loc main_arg5))) (un1 (m ((c : Thread nD τ).loc main_arg6)))
        (un2 (m ((c : Thread nD τ).loc main_arg7))) (un1 (m ((c : Thread nD τ).loc main_arg8)))
        ⟨(i 0).val, (i 0).isLt⟩ ⟨(i 1).val, (i 1).isLt⟩ ⟨(i 2).val, (i 2).isLt⟩ := by
  refine (W4_arr m ρ c 3).trans ((AttnBody.final3 (V3 m ρ) c).trans ?_)
  have hq : un3 (V3 m ρ c (Pipeline.arrRef spec1 0) : S8x2048x1024.Idx → EReal)
      = kerQuery (proj (un3 (m ((c : Thread nD τ).loc main_arg0))) (un2 (m ((c : Thread nD τ).loc main_arg3))) (un1 (m ((c : Thread nD τ).loc main_arg4)))) :=
    funext fun n => funext fun s => funext fun f => entry_main_v13 m ρ c n s f
  have hk : un3 (V3 m ρ c (Pipeline.arrRef spec1 1) : S8x2048x1024.Idx → EReal)
      = proj (un3 (m ((c : Thread nD τ).loc main_arg1))) (un2 (m ((c : Thread nD τ).loc main_arg5))) (un1 (m ((c : Thread nD τ).loc main_arg6))) :=
    funext fun n => funext fun s => funext fun f => entry_main_v14 m ρ c n s f
  have hv : un3 (V3 m ρ c (Pipeline.arrRef spec1 2) : S8x2048x1024.Idx → EReal)
      = proj (un3 (m ((c : Thread nD τ).loc main_arg2))) (un2 (m ((c : Thread nD τ).loc main_arg7))) (un1 (m ((c : Thread nD τ).loc main_arg8))) :=
    funext fun n => funext fun s => funext fun f => entry_main_v15 m ρ c n s f
  unfold AttnBody.attnArr kerForm
  rw [hq, hk, hv]
  rfl

end Cert.KernelIdeal.Glue

end
-- ==== Proof.lean ====
/-
  Single-head attention behind three linear layers: a tiled kernel against the plain reference, as extended reals.

  The kernel program flattens the three inputs, transposes the weights, runs a projection region (32 row blocks:
  input rows against the transposed weights plus the bias row, the query output also multiplied by 1/32), reshapes
  the three outputs back to batches, and runs an attention region (8 x 4 blocks: scores of 512 scaled query rows
  against all keys, shifted by the row maximum, exponentiated, contracted with the values and divided by the
  exponentials' row sum). The reference computes the same three linear layers, divides the scores by the square
  root of 1024, applies a softmax normalised before the last contraction, and contracts with the values.

  On the extended reals both are the same function of arguments whose entries are all real — which the precondition
  says: the square root of 1024 is 32, so dividing the scores by it is multiplying the query rows by 1/32 before the
  contraction; the row maxima then agree; and with the exponentials' row sum a positive real, dividing the
  contraction by it is contracting the divided weights. Finiteness is used exactly there (moving a factor across a
  sum, and cancelling a sum of exponentials).

  The three frames are the programs' runs with the results dropped; the idealization rewrote nothing, so its
  faithfulness claim is empty; the value claim joins the kernel's run (its result array read back through both
  regions and the host layout steps) to the reference's run (its result read one operation at a time) by the
  law above.
-/
import proofs.«149257_j1632087573105_2_alg».proof.Defs
import proofs.«149257_j1632087573105_2_alg».proof.Proof.Gen.Kernel
import proofs.«149257_j1632087573105_2_alg».proof.Proof.Gen.Kernel.Skeleton
import proofs.«149257_j1632087573105_2_alg».proof.Proof.Gen.Kernel.Launch
import proofs.«149257_j1632087573105_2_alg».proof.Proof.Gen.Kernel.Points
import proofs.«149257_j1632087573105_2_alg».proof.Proof.Gen.Kernel.Frame
import proofs.«149257_j1632087573105_2_alg».proof.Proof.Gen.KernelIdeal
import proofs.«149257_j1632087573105_2_alg».proof.Proof.Gen.KernelIdeal.Skeleton
import proofs.«149257_j1632087573105_2_alg».proof.Proof.Gen.KernelIdeal.Launch
import proofs.«149257_j1632087573105_2_alg».proof.Proof.Gen.KernelIdeal.Points
import proofs.«149257_j1632087573105_2_alg».proof.Proof.Gen.KernelIdeal.Frame
import proofs.«149257_j1632087573105_2_alg».proof.Proof.Gen.ReferenceIdeal
import proofs.«149257_j1632087573105_2_alg».proof.Proof.Gen.Pre_finite_inputs
import proofs.«149257_j1632087573105_2_alg».proof.Proof.Gen.ReferenceIdeal.Run
import proofs.«149257_j1632087573105_2_alg».proof.Proof.Gen.ReferenceIdeal.Read
import proofs.«149257_j1632087573105_2_alg».proof.Proof.AttnSpec
import proofs.«149257_j1632087573105_2_alg».proof.Proof.AttnAlgebra
import proofs.«149257_j1632087573105_2_alg».proof.Proof.InputsReal
import proofs.«149257_j1632087573105_2_alg».proof.Proof.RefIsSpec
import proofs.«149257_j1632087573105_2_alg».proof.Proof.KernelRun
import proofs.«149257_j1632087573105_2_alg».proof.Proof.KernelValue
import Idealize.ShloMosaic.Adequacy
import Idealize.ShloMosaic.Init

noncomputable section

namespace Cert.Proof

open Idealize.ShloMosaic Idealize.ShloMosaic.TcCoe Idealize.SL.Sem

/-- The kernel program as printed runs and leaves its arguments alone. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference's run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on finite arguments both programs run and end with the same result array: the kernel's
    spelling and the reference's spelling of attention are one function of real arguments. -/
theorem algebraic : Cert.algebraic_KernelIdeal_ReferenceIdeal := by
  intro m ρ m' ρ' hpre hagree
  refine ⟨fun c => Cert.KernelIdeal.Gen.W4 m ρ c (Proc.devRef .tc Cert.KernelIdeal.main_v16), Cert.KernelIdeal.Named.run_named m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v27_eq]
  obtain ⟨a0, a1, a2, a3, a4, a5, a6, a7, a8⟩ := hagree c
  rw [a0, a1, a2, a3, a4, a5, a6, a7, a8]
  refine Eq.trans ?_ (Cert.KernelIdeal.Glue.result_eq m ρ c).symm
  funext idx
  obtain ⟨n, i, e, rfl⟩ : ∃ (n : Fin 8) (i : Fin 2048) (e : Fin 1024), idx = ValueIdx.ix3 n i e :=
    ⟨idx 0, idx 1, idx 2, ValueIdx.eq_ix3 idx⟩
  obtain ⟨r0, r1, r2, r3, r4, r5, r6, r7, r8⟩ := Cert.Pre_finite_inputs.RealInputs.inputs_real
    (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
    (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (hpre c)
  refine (Cert.ReferenceIdeal.RefValue.ref_eq _ _ _ _ _ _ _ _ _ n i e).trans ?_
  exact (congrFun (congrFun (congrFun (Cert.Attn.kerForm_eq_refForm _ _ _ _ _ _ _ _ _
    (fun n s e => r0 (ValueIdx.ix3 n s e)) (fun n s e => r1 (ValueIdx.ix3 n s e)) (fun n s e => r2 (ValueIdx.ix3 n s e))
    (fun f e => r3 (ValueIdx.ix2 f e)) (fun f => r4 (ValueIdx.ix1 f))
    (fun f e => r5 (ValueIdx.ix2 f e)) (fun f => r6 (ValueIdx.ix1 f))
    (fun f e => r7 (ValueIdx.ix2 f e)) (fun f => r8 (ValueIdx.ix1 f))) n) i) e).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
